-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x4096x4096 : Shape := ⟨4, ![1, 2, 4096, 4096]⟩
abbrev S_ : Shape := ⟨0, ![]⟩

class Facts : Prop where
  bcast_S_S1x2x4096x4096 : S_.BroadcastsInDim S1x2x4096x4096 (![] : Fin 0 → Fin S1x2x4096x4096.rank)
  reducesTo_S1x2x4096x4096_S_d0_1_2_3 : S1x2x4096x4096.ReducesTo [0, 1, 2, 3] S_
  h_S_ : 0 < S_.numel

variable [Facts]

def fn {F : FTy → Type} [FloatOps F] (main_arg0 : FVec F S1x2x4096x4096 .f32) : IVec S_ 1 :=
  let main_v0 : FVec F S1x2x4096x4096 .f32 := Host.absf main_arg0
  let main_cst : FVec F S_ .f32 := constant S_ .f32 0x7F800000#32
  let main_v1 : FVec F S1x2x4096x4096 .f32 := broadcastInDim S1x2x4096x4096 ![] bcast_S_S1x2x4096x4096 main_cst
  let main_v2 : IVec S1x2x4096x4096 1 := cmpf .olt main_v0 main_v1
  let main_c : IVec S_ 1 := constantI S_ 1 1#1
  let main_v3 : IVec S_ 1 := (fun x v => Host.reduce IntOp.andi x v reducesTo_S1x2x4096x4096_S_d0_1_2_3 h_S_) main_v2 main_c
  main_v3
-- ==== Kernel.lean ====
abbrev S1x2x4096x4096 : Shape := ⟨4, ![1, 2, 4096, 4096]⟩
abbrev S2x4096x4096 : Shape := ⟨3, ![2, 4096, 4096]⟩
abbrev S1x1 : Shape := ⟨2, ![1, 1]⟩
abbrev S2x2x64x4096 : Shape := ⟨4, ![2, 2, 64, 4096]⟩
abbrev S2 : Shape := ⟨1, ![2]⟩
abbrev S1 : Shape := ⟨1, ![1]⟩
abbrev S_ : Shape := ⟨0, ![]⟩
abbrev S1x2x64x4096 : Shape := ⟨4, ![1, 2, 64, 4096]⟩
abbrev S2x64x4096 : Shape := ⟨3, ![2, 64, 4096]⟩
abbrev S1x1x64x4096 : Shape := ⟨4, ![1, 1, 64, 4096]⟩
abbrev S64x4096 : Shape := ⟨2, ![64, 4096]⟩
abbrev S62x4092 : Shape := ⟨2, ![62, 4092]⟩
abbrev S62 : Shape := ⟨1, ![62]⟩
abbrev S62x1 : Shape := ⟨2, ![62, 1]⟩

abbrev nBuf : Space → Nat
  | .hbm => 6
  | .vmem => 3
  | .smem => 0
  | _ => 0

abbrev bufTy : (tb : Table) → Fin (tcTables nBuf tb) → BufTy
  | .hbm, ⟨0, _⟩ => ⟨S1x2x4096x4096, .f32⟩
  | .hbm, ⟨1, _⟩ => ⟨S2x4096x4096, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S1x1, .f32⟩
  | .local _ .vmem, ⟨1, _⟩ => ⟨S2x2x64x4096, .f32⟩
  | .local _ .vmem, ⟨2, _⟩ => ⟨S1x1, .f32⟩
  | _, _ => ⟨S1x2x4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := ⟨1, ![66], ![false]⟩

def k0_off1 (i : grid0.Coords) : Fin 1 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  ![v12.toNat]
def k0_off2 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_6 : BitVec 32 := 0#32
  let c0_i32_7 : BitVec 32 := 0#32
  let c0_i32_8 : BitVec 32 := 0#32
  ![v12.toNat, 0, 0, 0]
def k0_off3 (i : grid0.Coords) : Fin 3 → Nat :=
  let c0_i32_9 : BitVec 32 := 0#32
  let arg0 : BitVec 32 := BitVec.ofNat 32 (i 0).val
  let c62_i32 : BitVec 32 := 62#32
  let v13 : BitVec 32 := Scalar.muli arg0 c62_i32
  let c1_i32_5 : BitVec 32 := 1#32
  let v14 : BitVec 32 := Scalar.addi v13 c1_i32_5
  let c0_i32_10 : BitVec 32 := 0#32
  ![0, v14.toNat, 0]
def k0_cond2 (i : grid0.Coords) : BitVec 1 :=
  let arg0 : BitVec 32 := BitVec.ofNat 32 (i 0).val
  let c1_i32_11 : BitVec 32 := 1#32
  let v20 : BitVec 32 := Scalar.addi arg0 c1_i32_11
  let c66_i32 : BitVec 32 := 66#32
  let v21 : BitVec 1 := Scalar.cmpi .slt v20 c66_i32
  let v22 : BitVec 32 := Scalar.extui v21
  let c0_i32_12 : BitVec 32 := 0#32
  let v23 : BitVec 1 := Scalar.cmpi .ne v22 c0_i32_12
  v23

def k0_off4 (i : grid0.Coords) : Fin 1 → Nat :=
  let c1_i32_32 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v75 : BitVec 32 := Scalar.subi c1_i32_32 v12
  ![v75.toNat]
def k0_off5 (i : grid0.Coords) : Fin 4 → Nat :=
  let c1_i32_32 : BitVec 32 := 1#32
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v75 : BitVec 32 := Scalar.subi c1_i32_32 v12
  let c0_i32_35 : BitVec 32 := 0#32
  let c0_i32_36 : BitVec 32 := 0#32
  let c0_i32_37 : BitVec 32 := 0#32
  ![v75.toNat, 0, 0, 0]
def k0_off6 (i : grid0.Coords) : Fin 3 → Nat :=
  let c0_i32_38 : BitVec 32 := 0#32
  let arg0 : BitVec 32 := BitVec.ofNat 32 (i 0).val
  let c1_i32_31 : BitVec 32 := 1#32
  let v74 : BitVec 32 := Scalar.addi arg0 c1_i32_31
  let c62_i32_33 : BitVec 32 := 62#32
  let v76 : BitVec 32 := Scalar.muli v74 c62_i32_33
  let c1_i32_34 : BitVec 32 := 1#32
  let v77 : BitVec 32 := Scalar.addi v76 c1_i32_34
  let c0_i32_39 : BitVec 32 := 0#32
  ![0, v77.toNat, 0]
def k0_off7 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v24 : Index := Scalar.indexCast v12
  let c0 : Index := 0#32
  let c0_13 : Index := 0#32
  let c0_14 : Index := 0#32
  ![v24.toNat, 0, 0, 0]
def k0_off8 (i : grid0.Coords) : Fin 4 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v27 : Index := Scalar.indexCast v12
  let c1 : Index := 1#32
  let c0_15 : Index := 0#32
  let c0_16 : Index := 0#32
  ![v27.toNat, 1, 0, 0]
def k0_cond3 (i : grid0.Coords) : BitVec 1 :=
  let arg0 : BitVec 32 := BitVec.ofNat 32 (i 0).val
  let c65_i32 : BitVec 32 := 65#32
  let v71 : BitVec 1 := Scalar.cmpi .eq arg0 c65_i32
  let v72 : BitVec 32 := Scalar.extui v71
  let c0_i32_30 : BitVec 32 := 0#32
  let v73 : BitVec 1 := Scalar.cmpi .ne v72 c0_i32_30
  v73

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

class Facts₀ : Prop where
  shapeCasts_S1x2x4096x4096_S2x4096x4096 : S1x2x4096x4096.ShapeCasts S2x4096x4096
  inb_S2_S1_0 : ∀ a, (![0] : Fin 1 → Nat) a + S1.size a ≤ S2.size a
  squeezes_S1_S_ : S1.Squeezes S_
  inb_S2x2x64x4096_S1x2x64x4096_0_0_0_0 : ∀ a, (![0, 0, 0, 0] : Fin 4 → Nat) a + S1x2x64x4096.size a ≤ S2x2x64x4096.size a
  squeezes_S1x2x64x4096_S2x64x4096 : S1x2x64x4096.Squeezes S2x64x4096
  inb_S2x4096x4096_S2x64x4096_0_1_0 : ∀ a, (![0, 1, 0] : Fin 3 → Nat) a + S2x64x4096.size a ≤ S2x4096x4096.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1x1x64x4096 : 0 < S1x1x64x4096.numel
  shapeCasts_S1x1x64x4096_S64x4096 : S1x1x64x4096.ShapeCasts S64x4096
  slices_S64x4096_o0_2_S62x4092 : S64x4096.Slices ![0, 2] S62x4092
  slices_S64x4096_o2_2_S62x4092 : S64x4096.Slices ![2, 2] S62x4092
  slices_S64x4096_o1_1_S62x4092 : S64x4096.Slices ![1, 1] S62x4092
  slices_S64x4096_o1_3_S62x4092 : S64x4096.Slices ![1, 3] S62x4092
  reduces_S62x4092_S62 : S62x4092.Reduces [1] S62
  shapeCasts_S62_S62x1 : S62.ShapeCasts S62x1
  reduces_S62x1_S1 : S62x1.Reduces [0] S1
  shapeCasts_S1_S1x1 : S1.ShapeCasts S1x1
  shapeCasts_S1x1_S_ : S1x1.ShapeCasts S_
  hcc0_scratch1 : 1 + S2.numel ≤ 3
  hrank0 : 0 < grid0.rank
  k0_off1_inb : ∀ i : grid0.Coords, ∀ a, (k0_off1 i) a + S1.size a ≤ S2.size a
  k0_off2_inb : ∀ i : grid0.Coords, ∀ a, (k0_off2 i) a + S1x2x64x4096.size a ≤ S2x2x64x4096.size a
  k0_off3_inb : ∀ i : grid0.Coords, ∀ a, (k0_off3 i) a + S2x64x4096.size a ≤ S2x4096x4096.size a
  k0_off4_inb : ∀ i : grid0.Coords, ∀ (k0_h2 : k0_cond2 i = 1#1), ∀ a, (k0_off4 i) a + S1.size a ≤ S2.size a
  k0_off5_inb : ∀ i : grid0.Coords, ∀ (k0_h2 : k0_cond2 i = 1#1), ∀ a, (k0_off5 i) a + S1x2x64x4096.size a ≤ S2x2x64x4096.size a
  k0_off6_inb : ∀ i : grid0.Coords, ∀ (k0_h2 : k0_cond2 i = 1#1), ∀ a, (k0_off6 i) a + S2x64x4096.size a ≤ S2x4096x4096.size a
  k0_off7_inb : ∀ i : grid0.Coords, ∀ a, (k0_off7 i) a + S1x1x64x4096.size a ≤ S2x2x64x4096.size a
  k0_off8_inb : ∀ i : grid0.Coords, ∀ a, (k0_off8 i) a + S1x1x64x4096.size a ≤ S2x2x64x4096.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x1.size a ≤ S1x1.size a
  hwx0_0 : ∀ i : grid0.Coords, EltTy.bits .f32 = 32 ∨ (Rect.block (s := S1x1) S1x1.size (cc0_transform_1 i) (hinb0_0 i)).WholeWords (EltTy.packing .f32)

variable [Facts₀]

abbrev cc0_scratch1 : DmaSems sig S2 := SemArray.consecutive 1 S2 hcc0_scratch1

abbrev win0_0 : Pipeline.Window sig grid0 :=
  Pipeline.Window.ofSpec (Memref.whole main_v1) S1x1.size cc0_transform_1 reads0_0 true true 1 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

abbrev idle0 : Fin 1 → grid0.Coords → Bool := fun | 0 => fun i => !(k0_cond3 i == 1#1) | ⟨_ + 1, h⟩ => absurd h (Nat.not_lt.2 (Nat.le_add_left _ _))

class Facts : Prop extends Facts₀ where

variable [Facts]
-- ==== ReferenceIdeal.lean ====
abbrev S1x2x4096x4096 : Shape := ⟨4, ![1, 2, 4096, 4096]⟩
abbrev S_ : Shape := ⟨0, ![]⟩
abbrev S1x2x4098x4096 : Shape := ⟨4, ![1, 2, 4098, 4096]⟩
abbrev S1x2x4096x4098 : Shape := ⟨4, ![1, 2, 4096, 4098]⟩
abbrev S1x2x4092x4092 : Shape := ⟨4, ![1, 2, 4092, 4092]⟩
abbrev S2x4092x4092 : Shape := ⟨3, ![2, 4092, 4092]⟩
abbrev S1x4092x4092 : Shape := ⟨3, ![1, 4092, 4092]⟩
abbrev S4092x4092 : Shape := ⟨2, ![4092, 4092]⟩

abbrev nBuf : Space → Nat
  | .hbm => 49
  | .vmem => 0
  | .smem => 0
  | _ => 0

abbrev bufTy : (tb : Table) → Fin (tcTables nBuf tb) → BufTy
  | .hbm, ⟨0, _⟩ => ⟨S1x2x4096x4096, .f32⟩
  | .hbm, ⟨1, _⟩ => ⟨S_, .i32⟩
  | .hbm, ⟨2, _⟩ => ⟨S_, .f32⟩
  | .hbm, ⟨3, _⟩ => ⟨S1x2x4098x4096, .f32⟩
  | .hbm, ⟨4, _⟩ => ⟨S1x2x4096x4096, .f32⟩
  | .hbm, ⟨5, _⟩ => ⟨S1x2x4096x4096, .f32⟩
  | .hbm, ⟨6, _⟩ => ⟨S1x2x4096x4096, .f32⟩
  | .hbm, ⟨7, _⟩ => ⟨S_, .f32⟩
  | .hbm, ⟨8, _⟩ => ⟨S1x2x4096x4096, .f32⟩
  | .hbm, ⟨9, _⟩ => ⟨S1x2x4096x4096, .f32⟩
  | .hbm, ⟨10, _⟩ => ⟨S_, .i32⟩
  | .hbm, ⟨11, _⟩ => ⟨S_, .f32⟩
  | .hbm, ⟨12, _⟩ => ⟨S1x2x4096x4098, .f32⟩
  | .hbm, ⟨13, _⟩ => ⟨S1x2x4096x4096, .f32⟩
  | .hbm, ⟨14, _⟩ => ⟨S1x2x4096x4096, .f32⟩
  | .hbm, ⟨15, _⟩ => ⟨S1x2x4096x4096, .f32⟩
  | .hbm, ⟨16, _⟩ => ⟨S_, .f32⟩
  | .hbm, ⟨17, _⟩ => ⟨S1x2x4096x4096, .f32⟩
  | .hbm, ⟨18, _⟩ => ⟨S1x2x4096x4096, .f32⟩
  | .hbm, ⟨19, _⟩ => ⟨S1x2x4092x4092, .f32⟩
  | .hbm, ⟨20, _⟩ => ⟨S2x4092x4092, .f32⟩
  | .hbm, ⟨21, _⟩ => ⟨S1x2x4092x4092, .f32⟩
  | .hbm, ⟨22, _⟩ => ⟨S2x4092x4092, .f32⟩
  | .hbm, ⟨23, _⟩ => ⟨S1x4092x4092, .f32⟩
  | .hbm, ⟨24, _⟩ => ⟨S4092x4092, .f32⟩
  | .hbm, ⟨25, _⟩ => ⟨S_, .f32⟩
  | .hbm, ⟨26, _⟩ => ⟨S4092x4092, .f32⟩
  | .hbm, ⟨27, _⟩ => ⟨S4092x4092, .f32⟩
  | .hbm, ⟨28, _⟩ => ⟨S1x4092x4092, .f32⟩
  | .hbm, ⟨29, _⟩ => ⟨S4092x4092, .f32⟩
  | .hbm, ⟨30, _⟩ => ⟨S1x4092x4092, .f32⟩
  | .hbm, ⟨31, _⟩ => ⟨S4092x4092, .f32⟩
  | .hbm, ⟨32, _⟩ => ⟨S1x4092x4092, .f32⟩
  | .hbm, ⟨33, _⟩ => ⟨S4092x4092, .f32⟩
  | .hbm, ⟨34, _⟩ => ⟨S_, .f32⟩
  | .hbm, ⟨35, _⟩ => ⟨S4092x4092, .f32⟩
  | .hbm, ⟨36, _⟩ => ⟨S4092x4092, .f32⟩
  | .hbm, ⟨37, _⟩ => ⟨S4092x4092, .f32⟩
  | .hbm, ⟨38, _⟩ => ⟨S4092x4092, .f32⟩
  | .hbm, ⟨39, _⟩ => ⟨S4092x4092, .f32⟩
  | .hbm, ⟨40, _⟩ => ⟨S4092x4092, .f32⟩
  | .hbm, ⟨41, _⟩ => ⟨S_, .f32⟩
  | .hbm, ⟨42, _⟩ => ⟨S4092x4092, .f32⟩
  | .hbm, ⟨43, _⟩ => ⟨S4092x4092, .f32⟩
  | .hbm, ⟨44, _⟩ => ⟨S4092x4092, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S1x2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call2_cst : Ref sig .tc := ⟨.hbm, 41, rfl⟩
abbrev main_call2_v0 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  pads_S1x2x4096x4096_S1x2x4098x4096_000_000_110_000 : S1x2x4096x4096.Pads (![0, 0, 1, 0] : Fin 4 → Nat) ![0, 0, 1, 0] ![0, 0, 0, 0] S1x2x4098x4096
  h_S_ : 0 < S_.numel
  slices_S1x2x4098x4096_S1x2x4096x4096_0_0_0_0 : S1x2x4098x4096.Slices ![0, 0, 0, 0] S1x2x4096x4096
  slices_S1x2x4098x4096_S1x2x4096x4096_0_0_2_0 : S1x2x4098x4096.Slices ![0, 0, 2, 0] S1x2x4096x4096
  bcast_S_S1x2x4096x4096 : S_.BroadcastsInDim S1x2x4096x4096 (![] : Fin 0 → Fin S1x2x4096x4096.rank)
  pads_S1x2x4096x4096_S1x2x4096x4098_000_000_000_110 : S1x2x4096x4096.Pads (![0, 0, 0, 1] : Fin 4 → Nat) ![0, 0, 0, 1] ![0, 0, 0, 0] S1x2x4096x4098
  slices_S1x2x4096x4098_S1x2x4096x4096_0_0_0_0 : S1x2x4096x4098.Slices ![0, 0, 0, 0] S1x2x4096x4096
  slices_S1x2x4096x4098_S1x2x4096x4096_0_0_0_2 : S1x2x4096x4098.Slices ![0, 0, 0, 2] S1x2x4096x4096
  slices_S1x2x4096x4096_S1x2x4092x4092_0_0_2_2 : S1x2x4096x4096.Slices ![0, 0, 2, 2] S1x2x4092x4092
  shapeCasts_S1x2x4092x4092_S2x4092x4092 : S1x2x4092x4092.ShapeCasts S2x4092x4092
  slices_S2x4092x4092_S1x4092x4092_0_0_0 : S2x4092x4092.Slices ![0, 0, 0] S1x4092x4092
  shapeCasts_S1x4092x4092_S4092x4092 : S1x4092x4092.ShapeCasts S4092x4092
  bcast_S_S4092x4092 : S_.BroadcastsInDim S4092x4092 (![] : Fin 0 → Fin S4092x4092.rank)
  slices_S2x4092x4092_S1x4092x4092_1_0_0 : S2x4092x4092.Slices ![1, 0, 0] S1x4092x4092
  reducesTo_S4092x4092_S_d0_1 : S4092x4092.ReducesTo [0, 1] S_

variable [Facts₀]

class Facts : Prop extends Facts₀ where

variable [Facts]
-- ==== Proof.KernelNames.lean ====
/-
  The streaming kernel's standing vocabulary (any float instance): the three `pl.when` conditions in closed form
  over the 66 grid points, the kernel's own buffers (the two-slot staging scratch, the one-word accumulator, the
  two transfer cells), the field array it reads by its own transfers, and the names of the pieces those transfers
  move: slot `s` of the staging scratch, the 64-row band `b` of the field (rows `62 b + 1 … 62 b + 64`, both
  channels: consecutive bands overlap in two rows), cell `s`.

  Between grid points the transfers form a two-slot ring, one band ahead: before point `k ≥ 1` band `k` is in
  flight into slot `k mod 2` while slot `(k + 1) mod 2` still holds band `k - 1`; point `k` waits for band
  `k`, starts band `k + 1` over band `k - 1`, and reads band `k`. Because two bands in flight may overlap, the
  field is lent by share: each slot borrows from its own half-share copy of the whole field.
-/
import proofs.«111218_j23441931502078_1_alg».proof.Proof.Gen.Kernel.Launch
import proofs.«111218_j23441931502078_1_alg».proof.Proof.Gen.Kernel.Skeleton
import proofs.«111218_j23441931502078_1_alg».proof.Proof.Gen.Kernel.Points
import proofs.«111218_j23441931502078_1_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region, over the algebra that carries transfer counters -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The three conditions, decided over the grid -/

/-- `pl.when(i == 0)`: prime the ring and clear the accumulator. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)
/-- `pl.when(i + 1 < 66)`: start the next band. -/
abbrev hasNext (i : grid0.Coords) : Prop := k0_cond2 i = 1#1
theorem hasNext_iff : ∀ t : Fin cfg0.N, hasNext (grid0.coords t) ↔ t.val < 65 :=
  (by decide +kernel : ∀ t : Fin grid0.N, hasNext (grid0.coords t) ↔ t.val < 65)
/-- `pl.when(i == 65)`: write the accumulator out. -/
abbrev isLast (i : grid0.Coords) : Prop := k0_cond3 i = 1#1
theorem isLast_iff : ∀ t : Fin cfg0.N, isLast (grid0.coords t) ↔ t.val = 65 :=
  (by decide +kernel : ∀ t : Fin grid0.N, isLast (grid0.coords t) ↔ t.val = 65)

/-! ## The kernel's own buffers -/

/-- The output window's current staging memref at point `t`. -/
abbrev outM (t : Fin cfg0.N) : Memref sig .tc .vmem S1x1 .f32 := win0_0.stage (cfg0.slots t 0)
abbrev outM_whole (t : Fin cfg0.N) : (outM t).IsWhole := hstage0_0 ((cfg0.slots t 0).cast nbuf0_0)
/-- The two-slot staging scratch, the accumulator, the field left in HBM. -/
abbrev ringM : Memref sig .tc .vmem S2x2x64x4096 .f32 := Memref.whole cc0_scratch0
abbrev accM : Memref sig .tc .vmem S1x1 .f32 := Memref.whole cc0_scratch2
abbrev fieldM : Memref sig .tc .hbm S2x4096x4096 .f32 := Memref.whole main_v0

abbrev BufOf (c : Dev nD) {sp : Space} {S : Shape} {e : EltTy} (M : Memref sig .tc sp S e) : Type := Buf (Elt F) (M.view.loc (c : Thread nD τ))
abbrev wholePt (c : Dev nD) {sp : Space} {S : Shape} {e : EltTy} (M : Memref sig .tc sp S e) (f : BufOf (F := F) c M) : sProp 𝕄 :=
  M.view.loc (c : Thread nD τ) ↦{fullShare} f

/-- The transfer cells: the two DMA semaphores of the kernel's own. -/
abbrev osem : Fin 2 → SemLoc sig := fun j => (![SemLoc.dma 1, SemLoc.dma 2] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 1) 0 ∗ semVal ((c : Thread nD τ), SemLoc.dma 2) 0) := by
  rw [Pipeline.ownSems0_eq_of_list c osem [0, 1] (by decide) (by decide)]; rfl
/-- The array the kernel moves itself. -/
def moved : Finset (Ref sig .tc) := {main_v0}
theorem moved_sub : moved ⊆ Pipeline.restRefs sig spec0 := by decide
theorem movedPts_eq (c : Dev nD) :
    (bigSep moved (fun b => ((c : Thread nD τ).loc b) ↦{fullShare} V m c b) : sProp 𝕄) = iprop(wholePt c fieldM (V m c main_v0)) := by
  rw [BI.bigSep_eq_bigSepL_of_eq [main_v0] (by decide) (by decide)]; rfl

/-- What the launch hands the body and takes back, conjunct by conjunct. -/
theorem launchInv_eq (c : Dev nD) :
    (Pipeline.ΦD osem spec0 moved (V m) c : sProp 𝕄)
      = iprop(iprop((∃ d, owns (c : Thread nD τ) ringM fullShare d) ∗ (∃ d, owns (c : Thread nD τ) accM fullShare d)) ∗ (∃ r, prngReg c r)
          ∗ iprop(semVal ((c : Thread nD τ), SemLoc.dma 1) 0 ∗ semVal ((c : Thread nD τ), SemLoc.dma 2) 0) ∗ iprop(wholePt c fieldM (V m c main_v0))) := by
  rw [Pipeline.ΦD_eq, scopedRest0_eq, ownSems_eq, movedPts_eq]; simp only [ringM, accM, owns_whole]; try rfl

/-! ## The ring's pieces: slot `s`, band `b`, cell `s` -/

instance : NeZero grid0.N := ⟨by rw [N_0]; decide⟩
theorem inb_slot (s : Fin 2) : ∀ a, (![s.val, 0, 0, 0] : Fin 4 → Nat) a + S1x2x64x4096.size a ≤ S2x2x64x4096.size a := by
  have := s.isLt; intro a; fin_cases a <;> simp <;> omega
theorem inb_band (b : Fin 66) : ∀ a, (![0, 62 * b.val + 1, 0] : Fin 3 → Nat) a + S2x64x4096.size a ≤ S2x4096x4096.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the staging scratch: both channels, 64 rows, all columns. -/
def rslot (s : Fin 2) : Memref sig .tc .vmem S2x64x4096 .f32 :=
  (ringM.slice (Rect.unit (s := S2x2x64x4096) ![s.val, 0, 0, 0] S1x2x64x4096.size (inb_slot s)) (fun _ => rfl)).squeeze S2x64x4096 squeezes_S1x2x64x4096_S2x64x4096
/-- Band `b` of the field: both channels, rows `62 b + 1 … 62 b + 64`, all columns. -/
def band (b : Fin 66) : Memref sig .tc .hbm S2x64x4096 .f32 :=
  fieldM.slice (Rect.unit (s := S2x4096x4096) ![0, 62 * b.val + 1, 0] S2x64x4096.size (inb_band b)) (fun _ => rfl)
/-- Cell `s`, and its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 1 := by decide
theorem cellR_1 : cellR 1 = SemLoc.dma 2 := by decide

section Families
variable (c : Dev nD) (W : BufOf (F := F) c fieldM)
/-- Slot `s` borrows from its own half-share copy of the field. -/
abbrev qs (s : Fin 2) : PosShare TreeShare := if s.val = 0 then fullShare.left else fullShare.right
abbrev slotP (s : Fin 2) (f : BufOf (F := F) c (rslot s)) : sProp 𝕄 := (rslot s).view.loc (c : Thread nD τ) ↦[(rslot s).view.set]{fullShare} f
abbrev cellP (s : Fin 2) : sProp 𝕄 := semVal ((c : Thread nD τ), cellR s) 0
abbrev bandP (s : Fin 2) (b : Fin 66) : sProp 𝕄 := (band b).view.loc (c : Thread nD τ) ↦[(band b).view.set]{qs s} W
/-- The rest of slot `s`'s copy while band `b` is lent from it (folded: no run reads it). -/
def restP (s : Fin 2) (b : Fin 66) : sProp 𝕄 := ((c : Thread nD τ).loc main_v0) ↦[Finset.univ \ (band b).view.set]{qs s} W
abbrev copyP (s : Fin 2) : sProp 𝕄 := ((c : Thread nD τ).loc main_v0) ↦[Finset.univ]{qs s} W
/-- Slot `s` once band `b` has landed in it whole. -/
abbrev landed (s : Fin 2) (b : Fin 66) (f : BufOf (F := F) c (rslot s)) : BufOf (F := F) c (rslot s) :=
  (rslot s).view.writes (Elt F) f [⟨Rect.whole S2x64x4096, ReadAs.same.apply ((band b).view.read (Elt F) W)⟩]
abbrev flightP (s : Fin 2) (b : Fin 66) (f : BufOf (F := F) c (rslot s)) : sProp 𝕄 :=
  Transfers.Flight countersEmb (c : Thread nD τ) (cellR s) default ((rslot s).view.amount (cellR s))
    iprop(slotP c s (landed c W s b f) ∗ bandP c W s b)
abbrev slotW (s : Fin 2) (f : BufOf (F := F) c (rslot s)) : sProp 𝕄 := iprop(slotP c s f ∗ copyP c W s)
abbrev flightW (s : Fin 2) (b : Fin 66) (f : BufOf (F := F) c (rslot s)) : sProp 𝕄 := iprop(flightP c W s b f ∗ restP c W s b)
abbrev noHome (b : Fin 66) : sProp 𝕄 := iprop(emp)
/-- The ring before its step `k`. -/
def ringAt (k : ℕ) : sProp 𝕄 :=
  if k = 0 then Ring.At₀ (cellP c) (slotW c W) noHome
  else Ring.AtK 1 (cellP c) (slotW c W) noHome (flightW c W) (landed c W) k
omit [FloatOps F] in
theorem cellP_0 : cellP (F := F) c 0 = semVal ((c : Thread nD τ), SemLoc.dma 1) 0 := congrArg (fun x => (semVal ((c : Thread nD τ), x) 0 : sProp 𝕄)) cellR_0
omit [FloatOps F] in
theorem cellP_1 : cellP (F := F) c 1 = semVal ((c : Thread nD τ), SemLoc.dma 2) 0 := congrArg (fun x => (semVal ((c : Thread nD τ), x) 0 : sProp 𝕄)) cellR_1
end Families

/-! ### The slots are disjoint and cover the scratch -/

abbrev slotSet (s : Fin 2) : Finset S2x2x64x4096.Idx := (Rect.unit (s := S2x2x64x4096) ![s.val, 0, 0, 0] S1x2x64x4096.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x2x64x4096) (0 : Fin 4) 1 (fun s : Fin 2 => (![s.val, 0, 0, 0] : Fin 4 → Nat)) S1x2x64x4096.size inb_slot (fun s => by simp) rfl s s' h
theorem slots_cover : Finset.univ.biUnion slotSet = Finset.univ :=
  Ring.lead_cover (s := S2x2x64x4096) (0 : Fin 4) 1 (fun s : Fin 2 => (![s.val, 0, 0, 0] : Fin 4 → Nat)) S1x2x64x4096.size inb_slot (fun s => by simp)
    (fun s a ha => by fin_cases a <;> first | exact absurd rfl ha | rfl) rfl (fun a ha => by fin_cases a <;> first | exact absurd rfl ha | rfl) rfl

section InOut
variable (c : Dev nD) (W : BufOf (F := F) c fieldM)
theorem slotP_eq (s : Fin 2) (f) : slotP (F := F) c s f = (((c : Thread nD τ).loc cc0_scratch0) ↦[slotSet s]{fullShare} f : sProp 𝕄) := by
  unfold slotP; rw [slotSet_eq]; rfl
theorem copy_split (s : Fin 2) (b : Fin 66) : copyP (F := F) c W s ⊣⊢ iprop(bandP c W s b ∗ restP c W s b) := by
  unfold restP; exact pointsTo_split_subset (Finset.subset_univ _)
theorem field_split : (wholePt c fieldM W : sProp 𝕄) ⊣⊢ iprop(copyP c W 0 ∗ copyP c W 1) :=
  pointsTo_share (PosShare.mem_left_op_right fullShare)
set_option maxHeartbeats 1000000 in
theorem slots_in : iprop(∃ d, owns (c : Thread nD τ) ringM fullShare d) ⊢ (iprop((∃ f, slotP (F := F) c 0 f) ∗ ∃ f, slotP (F := F) c 1 f) : sProp 𝕄) := by
  simp only [ringM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) ringM fullShare d) := by
  simp only [ringM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- Into the ring: the scratch whole, the cells at zero and the field whole are the ring before its first step; -/
theorem ring_in (c : Dev nD) :
    iprop((∃ d, owns (c : Thread nD τ) ringM fullShare d) ∗ (semVal ((c : Thread nD τ), SemLoc.dma 1) 0 ∗ semVal ((c : Thread nD τ), SemLoc.dma 2) 0) ∗ wholePt c fieldM (V m c main_v0))
      ⊢ ringAt c (V m c main_v0) 0 := by
  unfold ringAt; rw [if_pos rfl]; unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (field_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and out of it after the last step. -/
theorem ring_out (c : Dev nD) :
    ringAt c (V m c main_v0) 66
      ⊢ iprop((∃ d, owns (c : Thread nD τ) ringM fullShare d) ∗ (semVal ((c : Thread nD τ), SemLoc.dma 1) 0 ∗ semVal ((c : Thread nD τ), SemLoc.dma 2) 0) ∗ wholePt c fieldM (V m c main_v0)) := by
  unfold ringAt; rw [if_neg (by decide)]
  iintro H
  ihave H' := (Ring.free2_of_AtK_last _ _ _ _ _) $$ H
  simp only [Ring.free, cellP_0, cellP_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (field_split (F := F) c (V m c main_v0)).2; isplitl [HW0]; · iexact HW0
    iexact HW1

/-! ### The body's operands at point `t` are the ring's slots, bands and cells -/

section Canon
omit [FloatOps F]
/-- Which ring step a point takes. -/
theorem step_first : ∀ t : Fin grid0.N, isFirst (grid0.coords t) → hasNext (grid0.coords t) → t.val = 0 ∧ (t.val + 1) = 1 := by decide +kernel
theorem step_mid : ∀ t : Fin grid0.N, ¬isFirst (grid0.coords t) → hasNext (grid0.coords t) → 1 ≤ t.val ∧ t.val + 1 < 66 := by decide +kernel
theorem step_last : ∀ t : Fin grid0.N, ¬isFirst (grid0.coords t) → ¬hasNext (grid0.coords t) → 1 ≤ t.val ∧ t.val + 1 = 66 := by decide +kernel

set_option synthInstance.maxSize 4096 in
theorem off_prime_slot : ∀ t : Fin grid0.N, isFirst (grid0.coords t) → (![0, 0, 0, 0] : Fin 4 → Nat) = ![(Ring.sl 2 t.val).val, 0, 0, 0] := by decide +kernel
@[sl_canon] theorem canon_prime_slot (t : Fin grid0.N) (h0 : isFirst (grid0.coords t)) :
    (ringM.slice (Rect.unit (s := S2x2x64x4096) ![0, 0, 0, 0] S1x2x64x4096.size inb_S2x2x64x4096_S1x2x64x4096_0_0_0_0) (fun _ => rfl)).squeeze S2x64x4096 squeezes_S1x2x64x4096_S2x64x4096 = rslot (Ring.sl 2 t.val) :=
  congrArg (fun M : Memref sig .tc .vmem S1x2x64x4096 .f32 => M.squeeze S2x64x4096 squeezes_S1x2x64x4096_S2x64x4096) (Memref.slice_unit_congr _ (off_prime_slot t h0) _ _ (fun _ => rfl) (fun _ => rfl))
set_option synthInstance.maxSize 4096 in
theorem off_prime_cell : ∀ t : Fin grid0.N, isFirst (grid0.coords t) → (![0] : Fin 1 → Nat) = ![(Ring.sl 2 t.val).val] := by decide +kernel
@[sl_canon] theorem canon_prime_cell (t : Fin grid0.N) (h0 : isFirst (grid0.coords t)) :
    (cc0_scratch1.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (off_prime_cell t h0) _ _)
set_option synthInstance.maxSize 4096 in
theorem off_prime_band : ∀ t : Fin grid0.N, isFirst (grid0.coords t) → (![0, 1, 0] : Fin 3 → Nat) = ![0, 62 * (Ring.bk 66 t.val).val + 1, 0] := by decide +kernel
@[sl_canon] theorem canon_prime_band (t : Fin grid0.N) (h0 : isFirst (grid0.coords t)) :
    fieldM.slice (Rect.unit (s := S2x4096x4096) ![0, 1, 0] S2x64x4096.size inb_S2x4096x4096_S2x64x4096_0_1_0) (fun _ => rfl) = band (Ring.bk 66 t.val) :=
  Memref.slice_unit_congr _ (off_prime_band t h0) _ _ (fun _ => rfl) (fun _ => rfl)

set_option synthInstance.maxSize 4096 in
theorem off_wait_cell : ∀ t : Fin grid0.N, k0_off1 (grid0.coords t) = ![(Ring.sl 2 t.val).val] := by decide +kernel
@[sl_canon] theorem canon_wait_cell (t : Fin grid0.N) :
    (cc0_scratch1.slice (Rect.unit (s := S2) (k0_off1 (grid0.coords t)) S1.size (k0_off1_inb (grid0.coords t)))).squeeze S_ squeezes_S1_S_ = cellA (Ring.sl 2 t.val) :=
  congrArg (fun A : DmaSems sig S1 => A.squeeze S_ squeezes_S1_S_) (SemArray.slice_unit_congr _ (off_wait_cell t) _ _)
set_option synthInstance.maxSize 4096 in
theorem off_wait_slot : ∀ t : Fin grid0.N, k0_off2 (grid0.coords t) = ![(Ring.sl 2 t.val).val, 0, 0, 0] := by decide +kernel
@[sl_canon] theorem canon_wait_slot (t : Fin grid0.N) :
    (ringM.slice (Rect.unit (s := S2x2x64x4096) (k0_off2 (grid0.coords t)) S1x2x64x4096.size (k0_off2_inb (grid0.coords t))) (fun _ => rfl)).squeeze S2x64x4096 squeezes_S1x2x64x4096_S2x64x4096 = rslot (Ring.sl 2 t.val) :=
  congrArg (fun M : Memref sig .tc .vmem S1x2x64x4096 .f32 => M.squeeze S2x64x4096 squeezes_S1x2x64x4096_S2x64x4096) (Memref.slice_unit_congr _ (off_wait_slot t) _ _ (fun _ => rfl) (fun _ => rfl))
set_option synthInstance.maxSize 4096 in
theorem off_wait_band : ∀ t : Fin grid0.N, k0_off3 (grid0.coords t) = ![0, 62 * (Ring.bk 66 t.val).val + 1, 0] := by decide +kernel
@[sl_canon] theorem canon_wait_band (t : Fin grid0.N) :
    fieldM.slice (Rect.unit (s := S2x4096x4096) (k0_off3 (grid0.coords t)) S2x64x4096.size (k0_off3_inb (grid0.coords t))) (fun _ => rfl) = band (Ring.bk 66 t.val) :=
  Memref.slice_unit_congr _ (off_wait_band t) _ _ (fun _ => rfl) (fun _ => rfl)

set_option synthInstance.maxSize 4096 in
theorem off_next_cell : ∀ t : Fin grid0.N, hasNext (grid0.coords t) → k0_off4 (grid0.coords t) = ![(Ring.sl 2 (t.val + 1)).val] := by decide +kernel
@[sl_canon] theorem canon_next_cell (t : Fin grid0.N) (h1 : hasNext (grid0.coords t)) :
    (cc0_scratch1.slice (Rect.unit (s := S2) (k0_off4 (grid0.coords t)) S1.size (k0_off4_inb (grid0.coords t) h1))).squeeze S_ squeezes_S1_S_ = cellA (Ring.sl 2 (t.val + 1)) :=
  congrArg (fun A : DmaSems sig S1 => A.squeeze S_ squeezes_S1_S_) (SemArray.slice_unit_congr _ (off_next_cell t h1) _ _)
set_option synthInstance.maxSize 4096 in
theorem off_next_slot : ∀ t : Fin grid0.N, hasNext (grid0.coords t) → k0_off5 (grid0.coords t) = ![(Ring.sl 2 (t.val + 1)).val, 0, 0, 0] := by decide +kernel
@[sl_canon] theorem canon_next_slot (t : Fin grid0.N) (h1 : hasNext (grid0.coords t)) :
    (ringM.slice (Rect.unit (s := S2x2x64x4096) (k0_off5 (grid0.coords t)) S1x2x64x4096.size (k0_off5_inb (grid0.coords t) h1)) (fun _ => rfl)).squeeze S2x64x4096 squeezes_S1x2x64x4096_S2x64x4096 = rslot (Ring.sl 2 (t.val + 1)) :=
  congrArg (fun M : Memref sig .tc .vmem S1x2x64x4096 .f32 => M.squeeze S2x64x4096 squeezes_S1x2x64x4096_S2x64x4096) (Memref.slice_unit_congr _ (off_next_slot t h1) _ _ (fun _ => rfl) (fun _ => rfl))
set_option synthInstance.maxSize 4096 in
theorem off_next_band : ∀ t : Fin grid0.N, hasNext (grid0.coords t) → k0_off6 (grid0.coords t) = ![0, 62 * (Ring.bk 66 (t.val + 1)).val + 1, 0] := by decide +kernel
@[sl_canon] theorem canon_next_band (t : Fin grid0.N) (h1 : hasNext (grid0.coords t)) :
    fieldM.slice (Rect.unit (s := S2x4096x4096) (k0_off6 (grid0.coords t)) S2x64x4096.size (k0_off6_inb (grid0.coords t) h1)) (fun _ => rfl) = band (Ring.bk 66 (t.val + 1)) :=
  Memref.slice_unit_congr _ (off_next_band t h1) _ _ (fun _ => rfl) (fun _ => rfl)

set_option synthInstance.maxSize 4096 in
theorem off_load0 : ∀ t : Fin grid0.N, k0_off7 (grid0.coords t) = ![(Ring.sl 2 t.val).val, 0, 0, 0] := by decide +kernel
set_option synthInstance.maxSize 4096 in
theorem off_load1 : ∀ t : Fin grid0.N, k0_off8 (grid0.coords t) = ![(Ring.sl 2 t.val).val, 1, 0, 0] := by decide +kernel
/-- The two loads' boxes in the slot's spelling: channel 0 and channel 1 of the slot this point waited for. -/
instance (priority := high) closedOff_load0 (t : Fin grid0.N) : ClosedOff (k0_off7 (grid0.coords t)) := ⟨![(Ring.sl 2 t.val).val, 0, 0, 0], off_load0 t⟩
instance (priority := high) closedOff_load1 (t : Fin grid0.N) : ClosedOff (k0_off8 (grid0.coords t)) := ⟨![(Ring.sl 2 t.val).val, 1, 0, 0], off_load1 t⟩
end Canon

end Cert.Kernel.Stream

end
-- ==== Proof.KernelRunMid.lean ====
/-
  A middle grid point (`1 ≤ t ≤ 64`) run once at a symbolic point: wait for band `t` in slot `t mod 2`, start band
  `t + 1` over the band slot `(t + 1) mod 2` still keeps, read band `t`'s two channels, and add the band's penalty
  sum into the accumulator. What the accumulator's one store writes is found by the run, as a list of pieces.
-/
import proofs.«111218_j23441931502078_1_alg».proof.Proof.KernelNames

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def runMid (c : Dev nD) (t : Fin cfg0.N) (arg2 : Memref sig .tc .vmem S1x1 .f32) (harg2 : arg2.IsWhole)
    (hc0 : ¬isFirst (grid0.coords t)) (hc1 : hasNext (grid0.coords t)) (hc2 : ¬isLast (grid0.coords t))
    (a : Vec F S1x1 .f32) (W : BufOf (F := F) c fieldM) :
    { L : List (View.Piece (Elt F) S1x1 .f32) //
      ∀ (Wt : Waits sig Unit) (O : sProp 𝕄) (K : PUnit → sProp 𝕄),
        iprop(O ∗ owns (c : Thread nD τ) accM fullShare a
            ∗ Ring.inflight (flightW c W) (Ring.sl 2 t.val) (Ring.bk 66 t.val)
            ∗ Ring.kept (cellP c) (slotW c W) (landed c W) (Ring.sl 2 (t.val + 1)) (Ring.bk 66 (t.val - 1)) ∗ owes (c : Thread nD τ) 0 Wt
            ∗ (iprop(O ∗ (∃ f, accM.view.loc (c : Thread nD τ) ↦[accM.view.set]{fullShare} accM.view.writes (Elt F) f L)
                ∗ Ring.inflight (flightW c W) (Ring.sl 2 (t.val + 1)) (Ring.bk 66 (t.val + 1))
                ∗ Ring.kept (cellP c) (slotW c W) (landed c W) (Ring.sl 2 t.val) (Ring.bk 66 t.val) ∗ (∃ W', owes (c : Thread nD τ) 0 W')) -∗ K ⟨⟩))
          ⊢ wp frame (wpE (defs₀ (F := F)) Variants.none c none) Set.univ
              (cc0__jac_reg_kernel (grid0.coords t) fieldM (Memref.isWhole_whole _) arg2 harg2 ringM (Memref.isWhole_whole _) cc0_scratch1 accM (Memref.isWhole_whole _)) K } := by
  refine ⟨?_, fun Wt O K => ?run⟩
  case run =>
    haveI : Fact (¬isFirst (grid0.coords t)) := ⟨hc0⟩
    haveI : Fact (hasNext (grid0.coords t)) := ⟨hc1⟩
    haveI : Fact (¬isLast (grid0.coords t)) := ⟨hc2⟩
    simp only [cc0__jac_reg_kernel_eq_skeleton]; unfold cc0__jac_reg_kernel_skel
    simp only [k0_part1_eq_skeleton, k0_part2_eq_skeleton]; unfold k0_part1_skel k0_part2_skel
    unfold owns Ring.inflight Ring.kept
    iintro ⟨HO, ⟨%fa, %hfa, Ha⟩, ⟨%ff, Hf, Hrf⟩, ⟨Hc1, ⟨%fs1, Hs1, Hw1⟩⟩, HW, Hk⟩
    ihave Hsp1 := (copy_split c W (Ring.sl 2 (t.val + 1)) (Ring.bk 66 (t.val + 1))).1 $$ Hw1
    icases Hsp1 with ⟨Hh1, Hr1⟩
    obtain rfl := (Memref.isWhole_whole cc0_scratch2).eq_unread hfa
    sl_exec (disch := first | exact hc0 | exact hc1 | exact hc2)
    sl_step
    iapply Hk
    isplitl [HO]; · iexact HO
    isplitl [Ha]; · iexists _; iexact Ha
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (copy_split c W (Ring.sl 2 t.val) (Ring.bk 66 t.val)).2; isplitl [Hf_src]; · iexact Hf_src
      iexact Hrf
    iexists _; iexact HW

end Cert.Kernel.Stream

end
-- ==== Proof.KernelRunFirst.lean ====
/-
  The first grid point run once at a symbolic point: start band 0 into slot 0, clear the accumulator, wait for band 0,
  start band 1 into slot 1, read band 0's two channels and add the band's penalty sum into the cleared accumulator.
  What the accumulator's stores write is found by the run, as a list of pieces (last first).
-/
import proofs.«111218_j23441931502078_1_alg».proof.Proof.KernelRunMid

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def runFirst (c : Dev nD) (t : Fin cfg0.N) (arg2 : Memref sig .tc .vmem S1x1 .f32) (harg2 : arg2.IsWhole)
    (hc0 : isFirst (grid0.coords t)) (hc1 : hasNext (grid0.coords t)) (hc2 : ¬isLast (grid0.coords t))
    (W : BufOf (F := F) c fieldM) :
    { L : List (View.Piece (Elt F) S1x1 .f32) //
      ∀ (Wt : Waits sig Unit) (O : sProp 𝕄) (K : PUnit → sProp 𝕄),
        iprop(O ∗ (∃ d, owns (c : Thread nD τ) accM fullShare d)
            ∗ Ring.free (cellP c) (slotW c W) (Ring.sl 2 t.val)
            ∗ Ring.free (cellP c) (slotW c W) (Ring.sl 2 (t.val + 1)) ∗ owes (c : Thread nD τ) 0 Wt
            ∗ (iprop(O ∗ (∃ f, accM.view.loc (c : Thread nD τ) ↦[accM.view.set]{fullShare} accM.view.writes (Elt F) f L)
                ∗ Ring.inflight (flightW c W) (Ring.sl 2 (t.val + 1)) (Ring.bk 66 (t.val + 1))
                ∗ Ring.kept (cellP c) (slotW c W) (landed c W) (Ring.sl 2 t.val) (Ring.bk 66 t.val) ∗ (∃ W', owes (c : Thread nD τ) 0 W')) -∗ K ⟨⟩))
          ⊢ wp frame (wpE (defs₀ (F := F)) Variants.none c none) Set.univ
              (cc0__jac_reg_kernel (grid0.coords t) fieldM (Memref.isWhole_whole _) arg2 harg2 ringM (Memref.isWhole_whole _) cc0_scratch1 accM (Memref.isWhole_whole _)) K } := by
  refine ⟨?_, fun Wt O K => ?run⟩
  case run =>
    haveI : Fact (isFirst (grid0.coords t)) := ⟨hc0⟩
    haveI : Fact (hasNext (grid0.coords t)) := ⟨hc1⟩
    haveI : Fact (¬isLast (grid0.coords t)) := ⟨hc2⟩
    simp only [cc0__jac_reg_kernel_eq_skeleton]; unfold cc0__jac_reg_kernel_skel
    simp only [k0_part1_eq_skeleton, k0_part2_eq_skeleton]; unfold k0_part1_skel k0_part2_skel
    have hcanon0 := canon_prime_slot t hc0
    have hcanon1 := canon_prime_cell t hc0
    have hcanon2 := canon_prime_band t hc0
    unfold owns Ring.free Ring.inflight Ring.kept
    iintro ⟨HO, ⟨%d, %fa, -, Ha⟩, ⟨Hc0, ⟨%fs0, Hs0, Hw0⟩⟩, ⟨Hc1, ⟨%fs1, Hs1, Hw1⟩⟩, HW, Hk⟩
    ihave Hsp0 := (copy_split c W (Ring.sl 2 t.val) (Ring.bk 66 t.val)).1 $$ Hw0
    icases Hsp0 with ⟨Hh0, Hr0⟩
    ihave Hsp1 := (copy_split c W (Ring.sl 2 (t.val + 1)) (Ring.bk 66 (t.val + 1))).1 $$ Hw1
    icases Hsp1 with ⟨Hh1, Hr1⟩
    sl_exec (disch := first | exact hc0 | exact hc1 | exact hc2)
    sl_step
    iapply Hk
    isplitl [HO]; · iexact HO
    isplitl [Ha]; · iexists _; iexact Ha
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (copy_split c W (Ring.sl 2 t.val) (Ring.bk 66 t.val)).2; isplitl [Hh0]; · iexact Hh0
      iexact Hr0
    iexists _; iexact HW

end Cert.Kernel.Stream

end
-- ==== Proof.KernelRunLast.lean ====
/-
  The last grid point run once at a symbolic point: wait for band 65, read its two channels, add the band's penalty
  sum into the accumulator, and copy the accumulator into the output window's staging buffer. What the two stores
  write is found by the run, as lists of pieces: the accumulator's, then the output's.
-/
import proofs.«111218_j23441931502078_1_alg».proof.Proof.KernelRunFirst

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def runLast (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t))
    (a : Vec F S1x1 .f32) (W : BufOf (F := F) c fieldM) :
    { L : List (View.Piece (Elt F) S1x1 .f32) × List (View.Piece (Elt F) S1x1 .f32) //
      ∀ (Wt : Waits sig Unit) (K : PUnit → sProp 𝕄),
        iprop((∃ d, owns (c : Thread nD τ) arg2 fullShare d) ∗ owns (c : Thread nD τ) accM fullShare a
            ∗ Ring.inflight (flightW c W) (Ring.sl 2 t.val) (Ring.bk 66 t.val) ∗ owes (c : Thread nD τ) 0 Wt
            ∗ (iprop((∃ f, arg2.view.loc (c : Thread nD τ) ↦[arg2.view.set]{fullShare} arg2.view.writes (Elt F) f L.2)
                ∗ (∃ f, accM.view.loc (c : Thread nD τ) ↦[accM.view.set]{fullShare} accM.view.writes (Elt F) f L.1)
                ∗ Ring.kept (cellP c) (slotW c W) (landed c W) (Ring.sl 2 t.val) (Ring.bk 66 t.val) ∗ (∃ W', owes (c : Thread nD τ) 0 W')) -∗ K ⟨⟩))
          ⊢ wp frame (wpE (defs₀ (F := F)) Variants.none c none) Set.univ
              (cc0__jac_reg_kernel (grid0.coords t) fieldM (Memref.isWhole_whole _) arg2 harg2 ringM (Memref.isWhole_whole _) cc0_scratch1 accM (Memref.isWhole_whole _)) K } := by
  refine ⟨⟨?_, ?_⟩, fun Wt K => ?run⟩
  case run =>
    haveI : Fact (¬isFirst (grid0.coords t)) := ⟨hc0⟩
    haveI : Fact (¬hasNext (grid0.coords t)) := ⟨hc1⟩
    haveI : Fact (isLast (grid0.coords t)) := ⟨hc2⟩
    simp only [cc0__jac_reg_kernel_eq_skeleton]; unfold cc0__jac_reg_kernel_skel
    simp only [k0_part1_eq_skeleton, k0_part2_eq_skeleton]; unfold k0_part1_skel k0_part2_skel
    unfold owns Ring.inflight Ring.kept
    iintro ⟨⟨%d2, %f2, -, H2⟩, ⟨%fa, %hfa, Ha⟩, ⟨%ff, Hf, Hrf⟩, HW, Hk⟩
    obtain rfl := (Memref.isWhole_whole cc0_scratch2).eq_unread hfa
    sl_exec (disch := first | exact hc0 | exact hc1 | exact hc2)
    sl_step
    iapply Hk
    isplitl [H2]; · iexists _; iexact H2
    isplitl [Ha]; · iexists _; iexact Ha
    isplitl [Hf Hf_dst Hf_src Hrf]
    · isplitl [Hf]; · iexact Hf
      iexists _; isplitl [Hf_dst]; · iexact Hf_dst
      iapply (copy_split c W (Ring.sl 2 t.val) (Ring.bk 66 t.val)).2; isplitl [Hf_src]; · iexact Hf_src
      iexact Hrf
    iexists _; iexact HW

end Cert.Kernel.Stream

end
-- ==== Proof.KernelFrame.lean ====
/-
  The streaming kernel's run over the whole grid (any float instance): what the accumulator holds after each of the 66
  points, by recursion on the point, each step one of the three cases' found stores; the invariant between points
  (the accumulator at that value, the ring at its step, the generator register at anything); the body obligation at
  every point; and the launch. The output window is stored at the last point only and written back there.
-/
import proofs.«111218_j23441931502078_1_alg».proof.Proof.KernelRunLast

set_option maxRecDepth 16384

noncomputable section

namespace Cert.Kernel.Stream

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each case leaves in the accumulator and, at the last point, in the output's staging buffer -/

theorem coverFirst (c : Dev nD) (t : Fin cfg0.N) (arg2 : Memref sig .tc .vmem S1x1 .f32) (harg2 : arg2.IsWhole)
    (hc0 : isFirst (grid0.coords t)) (hc1 : hasNext (grid0.coords t)) (hc2 : ¬isLast (grid0.coords t)) (W : BufOf (F := F) c fieldM) (y : S1x1.Idx) :
    ∃ pc ∈ (runFirst c t arg2 harg2 hc0 hc1 hc2 W).1, y ∈ pc.1.set :=
  View.cover_of_tiledL (runFirst c t arg2 harg2 hc0 hc1 hc2 W).1 S1x1.size (by sl_kernel_rfl) y
def accFirst (c : Dev nD) (t : Fin cfg0.N) (arg2 : Memref sig .tc .vmem S1x1 .f32) (harg2 : arg2.IsWhole)
    (hc0 : isFirst (grid0.coords t)) (hc1 : hasNext (grid0.coords t)) (hc2 : ¬isLast (grid0.coords t)) (W : BufOf (F := F) c fieldM) : Vec F S1x1 .f32 :=
  View.canon (runFirst c t arg2 harg2 hc0 hc1 hc2 W).1

theorem coverMid (c : Dev nD) (t : Fin cfg0.N) (arg2 : Memref sig .tc .vmem S1x1 .f32) (harg2 : arg2.IsWhole)
    (hc0 : ¬isFirst (grid0.coords t)) (hc1 : hasNext (grid0.coords t)) (hc2 : ¬isLast (grid0.coords t)) (a : Vec F S1x1 .f32) (W : BufOf (F := F) c fieldM) (y : S1x1.Idx) :
    ∃ pc ∈ (runMid c t arg2 harg2 hc0 hc1 hc2 a W).1, y ∈ pc.1.set :=
  View.cover_of_tiledL (runMid c t arg2 harg2 hc0 hc1 hc2 a W).1 S1x1.size (by sl_kernel_rfl) y
def accMid (c : Dev nD) (t : Fin cfg0.N) (arg2 : Memref sig .tc .vmem S1x1 .f32) (harg2 : arg2.IsWhole)
    (hc0 : ¬isFirst (grid0.coords t)) (hc1 : hasNext (grid0.coords t)) (hc2 : ¬isLast (grid0.coords t)) (a : Vec F S1x1 .f32) (W : BufOf (F := F) c fieldM) : Vec F S1x1 .f32 :=
  View.canon (runMid c t arg2 harg2 hc0 hc1 hc2 a W).1

theorem coverLastAcc (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec F S1x1 .f32) (W : BufOf (F := F) c fieldM) (y : S1x1.Idx) :
    ∃ pc ∈ (runLast c t arg2 harg2 hc0 hc1 hc2 a W).1.1, y ∈ pc.1.set :=
  View.cover_of_tiledL (runLast c t arg2 harg2 hc0 hc1 hc2 a W).1.1 S1x1.size (by sl_kernel_rfl) y
theorem coverLastOut (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec F S1x1 .f32) (W : BufOf (F := F) c fieldM) (y : S1x1.Idx) :
    ∃ pc ∈ (runLast c t arg2 harg2 hc0 hc1 hc2 a W).1.2, y ∈ pc.1.set :=
  View.cover_of_tiledL (runLast c t arg2 harg2 hc0 hc1 hc2 a W).1.2 S1x1.size (by sl_kernel_rfl) y
def accLast (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec F S1x1 .f32) (W : BufOf (F := F) c fieldM) : Vec F S1x1 .f32 :=
  View.canon (runLast c t arg2 harg2 hc0 hc1 hc2 a W).1.1
def outLast (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec F S1x1 .f32) (W : BufOf (F := F) c fieldM) : Vec F S1x1 .f32 :=
  View.canon (runLast c t arg2 harg2 hc0 hc1 hc2 a W).1.2

/-! ## The accumulator after each point -/

theorem N_66 : cfg0.N = 66 := N_0
theorem lt_N {n : ℕ} (h : n < 66) : n < cfg0.N := lt_of_lt_of_eq h N_66.symm

/-- Point number `n` of the grid. -/
abbrev pt (n : ℕ) (h : n < 66) : Fin cfg0.N := ⟨n, lt_N h⟩

/-- The accumulator after point `n`: the first point's stores, then each later point's over what the point before left. -/
def accV (c : Dev nD) : ℕ → Vec F S1x1 .f32
  | 0 => accFirst c (pt 0 (by decide)) (outM (pt 0 (by decide))) (outM_whole (pt 0 (by decide))) ((isFirst_iff (pt 0 (by decide))).mpr rfl) ((hasNext_iff (pt 0 (by decide))).mpr (by decide))
      (fun h => absurd ((isLast_iff (pt 0 (by decide))).mp h) (by decide)) (V m c main_v0)
  | n + 1 =>
    if h : n + 1 < 65 then
      accMid c (pt (n + 1) (by omega)) (outM (pt (n + 1) (by omega))) (outM_whole (pt (n + 1) (by omega)))
        (fun h0 => absurd ((isFirst_iff (pt (n + 1) (by omega))).mp h0) (Nat.succ_ne_zero n)) ((hasNext_iff (pt (n + 1) (by omega))).mpr h)
        (fun h2 => absurd ((isLast_iff (pt (n + 1) (by omega))).mp h2) (by show ¬ n + 1 = 65; omega)) (accV c n) (V m c main_v0)
    else if h' : n + 1 = 65 then
      accLast c (pt (n + 1) (by omega)) (outM (pt (n + 1) (by omega))) (outM_whole (pt (n + 1) (by omega)))
        (fun h0 => absurd ((isFirst_iff (pt (n + 1) (by omega))).mp h0) (Nat.succ_ne_zero n)) (fun h1 => h ((hasNext_iff (pt (n + 1) (by omega))).mp h1))
        ((isLast_iff (pt (n + 1) (by omega))).mpr h') (accV c n) (V m c main_v0)
    else accV c n

theorem accV_first (c : Dev nD) (t : Fin cfg0.N) (h0 : isFirst (grid0.coords t)) (h1 : hasNext (grid0.coords t)) (h2 : ¬isLast (grid0.coords t)) :
    accV m c t.val = accFirst c t (outM t) (outM_whole t) h0 h1 h2 (V m c main_v0) := by
  obtain ⟨n, hn⟩ := t
  have hz : n = 0 := (isFirst_iff ⟨n, hn⟩).mp h0
  subst hz; rfl
theorem accV_mid (c : Dev nD) (t : Fin cfg0.N) (h0 : ¬isFirst (grid0.coords t)) (h1 : hasNext (grid0.coords t)) (h2 : ¬isLast (grid0.coords t)) :
    accV m c t.val = accMid c t (outM t) (outM_whole t) h0 h1 h2 (accV m c (t.val - 1)) (V m c main_v0) := by
  obtain ⟨n, hn⟩ := t
  cases n with
  | zero => exact absurd ((isFirst_iff ⟨0, hn⟩).mpr rfl) h0
  | succ n =>
    have hlt : n + 1 < 65 := (hasNext_iff ⟨n + 1, hn⟩).mp h1
    show (if h : n + 1 < 65 then _ else _) = _
    rw [dif_pos hlt]; rfl
theorem accV_last (c : Dev nD) (t : Fin cfg0.N) (h0 : ¬isFirst (grid0.coords t)) (h1 : ¬hasNext (grid0.coords t)) (h2 : isLast (grid0.coords t)) :
    accV m c t.val = accLast c t (outM t) (outM_whole t) h0 h1 h2 (accV m c (t.val - 1)) (V m c main_v0) := by
  obtain ⟨n, hn⟩ := t
  cases n with
  | zero => exact absurd ((isFirst_iff ⟨0, hn⟩).mpr rfl) h0
  | succ n =>
    have hnl : ¬ n + 1 < 65 := fun h => h1 ((hasNext_iff ⟨n + 1, hn⟩).mpr h)
    have h65 : n + 1 = 65 := (isLast_iff ⟨n + 1, hn⟩).mp h2
    show (if h : n + 1 < 65 then _ else _) = _
    rw [dif_neg hnl, dif_pos h65]; rfl

/-- What the output's staging buffer holds after the body: read only at the last point, where it is the stored accumulator. -/
def outAt (c : Dev nD) (t : Fin cfg0.N) : Vec F S1x1 .f32 :=
  if h : isLast (grid0.coords t) then
    outLast c t (outM t) (outM_whole t) (fun h0 => by have := (isFirst_iff t).mp h0; have := (isLast_iff t).mp h; omega)
      (fun h1 => by have := (hasNext_iff t).mp h1; have := (isLast_iff t).mp h; omega) h (accV m c (t.val - 1)) (V m c main_v0)
  else accV m c t.val

/-! ## The proof data -/

/-- The accumulator before point `k`: anything before the first point, else what point `k - 1` left. -/
def accPart (c : Dev nD) (k : ℕ) : sProp 𝕄 :=
  if k = 0 then iprop(∃ d, owns (c : Thread nD τ) accM fullShare d) else owns (c : Thread nD τ) accM fullShare (accV m c (k - 1))
/-- The invariant before point `k`. -/
def PhiS (c : Dev nD) (k : ℕ) : sProp 𝕄 := iprop(accPart m c k ∗ (∃ r, prngReg c r) ∗ ringAt c (V m c main_v0) k)

def dats (_ : Fin 1) (c : Dev nD) : Dat τ (Elt F) Unit ℕ (Pipeline.UD sig nD τ) ℕ cfg0 c where
  A w := V m c (Pipeline.arrRef spec0 w)
  after w t := match w with
    | ⟨0, _⟩ => outAt m c t
  Φ t := PhiS m c t.val
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]
theorem after_0 (c : Dev nD) (t : Fin cfg0.N) : (dats m 0 c).after 0 t = outAt m c t := by dsimp only [dats]

/-- The output window is idle except at the last point, and written back exactly there. -/
theorem idle_of_last (t : Fin cfg0.N) (h : isLast (grid0.coords t)) : idle0 0 (grid0.coords t) = false := by
  show (!(k0_cond3 (grid0.coords t) == 1#1)) = false; rw [show (k0_cond3 (grid0.coords t) == 1#1) = true from beq_iff_eq.mpr h]; rfl
theorem idle_of_not_last (t : Fin cfg0.N) (h : ¬isLast (grid0.coords t)) : idle0 0 (grid0.coords t) = true := by
  show (!(k0_cond3 (grid0.coords t) == 1#1)) = true; rw [show (k0_cond3 (grid0.coords t) == 1#1) = false from beq_eq_false_iff_ne.mpr h]; rfl
theorem flush_of_last (t : Fin cfg0.N) (h : isLast (grid0.coords t)) : (cfg0.win 0).flush t = true :=
  (flush0_0 t).mpr (by have := (isLast_iff t).mp h; omega)
theorem flush_of_not_last (t : Fin cfg0.N) (h : ¬isLast (grid0.coords t)) : (cfg0.win 0).flush t = false :=
  Bool.eq_false_iff.mpr fun hf => h ((isLast_iff t).mpr (by have := (flush0_0 t).mp hf; have := lt_of_lt_of_eq t.isLt N_66; omega))

/-! ## The body obligation -/

set_option maxHeartbeats 2000000 in
theorem body_obligation (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl, show (dats m 0 c).owed t.succ = 0 from rfl]
  rw [Phi_castSucc m c t, Phi_succ m c t]
  unfold PhiS ringAt accPart
  have hN : t.val < 66 := lt_of_lt_of_eq t.isLt N_66
  by_cases hL : isLast (grid0.coords t)
  · -- the last point
    have h65 : t.val = 65 := (isLast_iff t).mp hL
    have hF : ¬isFirst (grid0.coords t) := fun h => by have := (isFirst_iff t).mp h; omega
    have hX : ¬hasNext (grid0.coords t) := fun h => by have := (hasNext_iff t).mp h; omega
    simp only [idle_of_last t hL, flush_of_last t hL, after_0]
    obtain ⟨hK1, hKB⟩ := step_last t hF hX
    rw [if_neg (show ¬t.val = 0 by omega), if_neg (show ¬t.val + 1 = 0 by omega), if_neg (show ¬t.val = 0 by omega), if_neg (show ¬t.val + 1 = 0 by omega)]
    rw [Ring.AtK2_here_last _ _ _ _ _ t.val hK1 hKB, Ring.AtK2_next_last _ _ _ _ _ t.val hK1 hKB]
    rw [show t.val + 1 - 1 = t.val by omega, accV_last m c t hF hX hL, show outAt m c t = outLast c t (outM t) (outM_whole t) hF hX hL (accV m c (t.val - 1)) (V m c main_v0) from dif_pos hL]
    unfold accLast outLast
    iintro ⟨⟨Hacc, Hg, ⟨-, Hfl, Hkp⟩⟩, ⟨%Wt, -, HW⟩, ⟨%d1, H1⟩⟩
    iapply ((runLast c t (outM t) (outM_whole t) hF hX hL (accV m c (t.val - 1)) (V m c main_v0)).2 Wt _)
    isplitl [H1]; · iexists _; iexact H1
    isplitl [Hacc]; · iexact Hacc
    isplitl [Hfl]; · iexact Hfl
    isplitl [HW]; · iexact HW
    iintro ⟨⟨%f2, H2⟩, ⟨%fa, Ha⟩, Hkp', ⟨%W', HW'⟩⟩
    isplitl [Ha Hg Hkp Hkp']
    · isplitl [Ha]
      · unfold owns; iexists _; isplitr; swap; · iexact Ha
        ipureintro; exact View.read_writes_eq_canon _ _ _ (coverLastAcc c _ _ _ _ _ _ _ _)
      isplitl [Hg]; · iexact Hg
      iapply (Ring.with_homes (Idealize.SL.BI.Entails.refl _))
      isplitl [Hkp]; · iexact Hkp
      iexact Hkp'
    isplitl [HW']
    · iexists W'; isplitr; · ipureintro; exact fun _ _ => Or.inl trivial
      iexact HW'
    unfold owns; iexists _; isplitr; swap; · iexact H2
    ipureintro; exact View.read_writes_eq_canon _ _ _ (coverLastOut c _ _ _ _ _ _ _ _)
  · simp only [idle_of_not_last t hL, flush_of_not_last t hL]
    have hX : hasNext (grid0.coords t) := (hasNext_iff t).mpr (by have : t.val ≠ 65 := fun h => hL ((isLast_iff t).mpr h); omega)
    by_cases hF : isFirst (grid0.coords t)
    · -- the first point
      obtain ⟨hK0, hK1⟩ := step_first t hF hX
      rw [if_pos hK0, if_neg (show ¬t.val + 1 = 0 by omega), if_pos hK0, if_neg (show ¬t.val + 1 = 0 by omega)]
      rw [Ring.At₀_eq2' _ _ _ t.val hK0 (by decide : 2 ≤ 66), Ring.AtK2_one' _ _ _ _ _ t.val hK0 (by decide : 1 < 66)]
      rw [show t.val + 1 - 1 = t.val by omega, accV_first m c t hF hX hL]
      unfold accFirst
      iintro ⟨⟨Hacc, Hg, ⟨-, Hfr0, Hfr1⟩⟩, ⟨%Wt, -, HW⟩, H1⟩
      iapply ((runFirst c t (outM t) (outM_whole t) hF hX hL (V m c main_v0)).2 Wt _ _)
      isplitl [H1]; · iexact H1
      isplitl [Hacc]; · iexact Hacc
      isplitl [Hfr0]; · iexact Hfr0
      isplitl [Hfr1]; · iexact Hfr1
      isplitl [HW]; · iexact HW
      iintro ⟨H1, ⟨%fa, Ha⟩, Hfl', Hkp', ⟨%W', HW'⟩⟩
      isplitl [Ha Hg Hfl' Hkp']
      · isplitl [Ha]
        · unfold owns; iexists _; isplitr; swap; · iexact Ha
          ipureintro; exact View.read_writes_eq_canon _ _ _ (coverFirst c _ _ _ _ _ _ _)
        isplitl [Hg]; · iexact Hg
        iapply Ring.with_homes₀
        isplitl [Hfl']; · iexact Hfl'
        iexact Hkp'
      isplitl [HW']
      · iexists W'; isplitr; · ipureintro; exact fun _ _ => Or.inl trivial
        iexact HW'
      iexact H1
    · -- a middle point
      obtain ⟨hK1, hKB⟩ := step_mid t hF hX
      rw [if_neg (show ¬t.val = 0 by omega), if_neg (show ¬t.val + 1 = 0 by omega), if_neg (show ¬t.val = 0 by omega), if_neg (show ¬t.val + 1 = 0 by omega)]
      rw [Ring.AtK2_here _ _ _ _ _ t.val hK1 hKB, Ring.AtK2_next _ _ _ _ _ t.val hK1 hKB]
      rw [show t.val + 1 - 1 = t.val by omega, accV_mid m c t hF hX hL]
      unfold accMid
      iintro ⟨⟨Hacc, Hg, ⟨-, Hfl, Hkp⟩⟩, ⟨%Wt, -, HW⟩, H1⟩
      iapply ((runMid c t (outM t) (outM_whole t) hF hX hL (accV m c (t.val - 1)) (V m c main_v0)).2 Wt _ _)
      isplitl [H1]; · iexact H1
      isplitl [Hacc]; · iexact Hacc
      isplitl [Hfl]; · iexact Hfl
      isplitl [Hkp]; · iexact Hkp
      isplitl [HW]; · iexact HW
      iintro ⟨H1, ⟨%fa, Ha⟩, Hfl', Hkp', ⟨%W', HW'⟩⟩
      isplitl [Ha Hg Hfl' Hkp']
      · isplitl [Ha]
        · unfold owns; iexists _; isplitr; swap; · iexact Ha
          ipureintro; exact View.read_writes_eq_canon _ _ _ (coverMid c _ _ _ _ _ _ _ _)
        isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      iexact H1

/-! ## The launch -/

theorem hin (c : Dev nD) : Pipeline.ΦD osem spec0 moved (V m) c ⊢ (dats m 0 c).Φ 0 := by
  rw [launchInv_eq, show (dats m 0 c).Φ 0 = PhiS m c 0 from rfl]
  unfold PhiS accPart; rw [if_pos rfl]
  iintro ⟨⟨HR, HA⟩, Hg, ⟨Hq0, Hq1⟩, Hh⟩
  isplitl [HA]; · iexact HA
  isplitl [Hg]; · iexact Hg
  iapply (ring_in (F := F) m c)
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD osem spec0 moved (V m) c := by
  rw [launchInv_eq, show (dats m 0 c).Φ (Fin.last cfg0.N) = PhiS m c grid0.N from rfl]
  unfold PhiS accPart
  rw [show grid0.N = 66 by rw [N_0], if_neg (by decide)]
  iintro ⟨HA, Hg, HR⟩
  ihave HX := (ring_out (F := F) m c) $$ HR
  icases HX with ⟨HR, ⟨Hq0, Hq1⟩, Hh⟩
  isplitl [HR HA]
  · isplitl [HR]; · iexact HR
    iexists _; iexact HA
  isplitl [Hg]; · iexact Hg
  isplitl [Hq0 Hq1]
  · isplitl [Hq0]; · iexact Hq0
    iexact Hq1
  iexact Hh

/-- The host lines after the region touch the output array and buffers of their own, never the field the kernel moves. -/
theorem tail_sub : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  subst hops
  refine Pipeline.sub_tailRefsBut Pipeline.Prefetch.none spec0 moved op ((List.forall_iff_forall_mem.mp hostOps1_sub) op hop) (fun k => k.elim0) ?_
  intro b hb
  simp only [moved, Finset.mem_singleton] at hb; subst hb
  simp only [hostOps1, List.mem_cons, List.mem_nil_iff, or_false] at hop
  rcases hop with rfl | rfl | rfl
  all_goals simp only [StableHlo.reshape_bufs, StableHlo.nullary_bufs, StableHlo.binary_bufs, Finset.mem_insert, Finset.mem_singleton, not_or]
  all_goals (repeat' apply And.intro)
  all_goals exact StableHlo.devRef_ne_of_ne (by decide)

set_option backward.isDefEq.respectTransparency.types false in
/-- Every weakly fair execution of @main on the TensorCores terminates, without a fault; the output array ends at the
    library's account of its window and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem defs₀ Variants.none ownSemFacts moved moved_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := hin m) (hout := hout m)

/-- No host operation after the region writes the argument: it ends as launched. -/
theorem tail_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The frame: the program runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (tail_main_arg0 m c))) (run_main m ρ)

end Cert.Kernel.Stream

end
-- ==== Proof.KernelIdealNames.lean ====
/-
  The streaming kernel's standing vocabulary (any float instance): the three `pl.when` conditions in closed form
  over the 66 grid points, the kernel's own buffers (the two-slot staging scratch, the one-word accumulator, the
  two transfer cells), the field array it reads by its own transfers, and the names of the pieces those transfers
  move: slot `s` of the staging scratch, the 64-row band `b` of the field (rows `62 b + 1 … 62 b + 64`, both
  channels: consecutive bands overlap in two rows), cell `s`.

  Between grid points the transfers form a two-slot ring, one band ahead: before point `k ≥ 1` band `k` is in
  flight into slot `k mod 2` while slot `(k + 1) mod 2` still holds band `k - 1`; point `k` waits for band
  `k`, starts band `k + 1` over band `k - 1`, and reads band `k`. Because two bands in flight may overlap, the
  field is lent by share: each slot borrows from its own half-share copy of the whole field.
-/
import proofs.«111218_j23441931502078_1_alg».proof.Proof.Gen.KernelIdeal.Launch
import proofs.«111218_j23441931502078_1_alg».proof.Proof.Gen.KernelIdeal.Skeleton
import proofs.«111218_j23441931502078_1_alg».proof.Proof.Gen.KernelIdeal.Points
import proofs.«111218_j23441931502078_1_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region, over the algebra that carries transfer counters -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The three conditions, decided over the grid -/

/-- `pl.when(i == 0)`: prime the ring and clear the accumulator. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)
/-- `pl.when(i + 1 < 66)`: start the next band. -/
abbrev hasNext (i : grid0.Coords) : Prop := k0_cond2 i = 1#1
theorem hasNext_iff : ∀ t : Fin cfg0.N, hasNext (grid0.coords t) ↔ t.val < 65 :=
  (by decide +kernel : ∀ t : Fin grid0.N, hasNext (grid0.coords t) ↔ t.val < 65)
/-- `pl.when(i == 65)`: write the accumulator out. -/
abbrev isLast (i : grid0.Coords) : Prop := k0_cond3 i = 1#1
theorem isLast_iff : ∀ t : Fin cfg0.N, isLast (grid0.coords t) ↔ t.val = 65 :=
  (by decide +kernel : ∀ t : Fin grid0.N, isLast (grid0.coords t) ↔ t.val = 65)

/-! ## The kernel's own buffers -/

/-- The output window's current staging memref at point `t`. -/
abbrev outM (t : Fin cfg0.N) : Memref sig .tc .vmem S1x1 .f32 := win0_0.stage (cfg0.slots t 0)
abbrev outM_whole (t : Fin cfg0.N) : (outM t).IsWhole := hstage0_0 ((cfg0.slots t 0).cast nbuf0_0)
/-- The two-slot staging scratch, the accumulator, the field left in HBM. -/
abbrev ringM : Memref sig .tc .vmem S2x2x64x4096 .f32 := Memref.whole cc0_scratch0
abbrev accM : Memref sig .tc .vmem S1x1 .f32 := Memref.whole cc0_scratch2
abbrev fieldM : Memref sig .tc .hbm S2x4096x4096 .f32 := Memref.whole main_v0

abbrev BufOf (c : Dev nD) {sp : Space} {S : Shape} {e : EltTy} (M : Memref sig .tc sp S e) : Type := Buf (Elt F) (M.view.loc (c : Thread nD τ))
abbrev wholePt (c : Dev nD) {sp : Space} {S : Shape} {e : EltTy} (M : Memref sig .tc sp S e) (f : BufOf (F := F) c M) : sProp 𝕄 :=
  M.view.loc (c : Thread nD τ) ↦{fullShare} f

/-- The transfer cells: the two DMA semaphores of the kernel's own. -/
abbrev osem : Fin 2 → SemLoc sig := fun j => (![SemLoc.dma 1, SemLoc.dma 2] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 1) 0 ∗ semVal ((c : Thread nD τ), SemLoc.dma 2) 0) := by
  rw [Pipeline.ownSems0_eq_of_list c osem [0, 1] (by decide) (by decide)]; rfl
/-- The array the kernel moves itself. -/
def moved : Finset (Ref sig .tc) := {main_v0}
theorem moved_sub : moved ⊆ Pipeline.restRefs sig spec0 := by decide
theorem movedPts_eq (c : Dev nD) :
    (bigSep moved (fun b => ((c : Thread nD τ).loc b) ↦{fullShare} V m c b) : sProp 𝕄) = iprop(wholePt c fieldM (V m c main_v0)) := by
  rw [BI.bigSep_eq_bigSepL_of_eq [main_v0] (by decide) (by decide)]; rfl

/-- What the launch hands the body and takes back, conjunct by conjunct. -/
theorem launchInv_eq (c : Dev nD) :
    (Pipeline.ΦD osem spec0 moved (V m) c : sProp 𝕄)
      = iprop(iprop((∃ d, owns (c : Thread nD τ) ringM fullShare d) ∗ (∃ d, owns (c : Thread nD τ) accM fullShare d)) ∗ (∃ r, prngReg c r)
          ∗ iprop(semVal ((c : Thread nD τ), SemLoc.dma 1) 0 ∗ semVal ((c : Thread nD τ), SemLoc.dma 2) 0) ∗ iprop(wholePt c fieldM (V m c main_v0))) := by
  rw [Pipeline.ΦD_eq, scopedRest0_eq, ownSems_eq, movedPts_eq]; simp only [ringM, accM, owns_whole]; try rfl

/-! ## The ring's pieces: slot `s`, band `b`, cell `s` -/

instance : NeZero grid0.N := ⟨by rw [N_0]; decide⟩
theorem inb_slot (s : Fin 2) : ∀ a, (![s.val, 0, 0, 0] : Fin 4 → Nat) a + S1x2x64x4096.size a ≤ S2x2x64x4096.size a := by
  have := s.isLt; intro a; fin_cases a <;> simp <;> omega
theorem inb_band (b : Fin 66) : ∀ a, (![0, 62 * b.val + 1, 0] : Fin 3 → Nat) a + S2x64x4096.size a ≤ S2x4096x4096.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the staging scratch: both channels, 64 rows, all columns. -/
def rslot (s : Fin 2) : Memref sig .tc .vmem S2x64x4096 .f32 :=
  (ringM.slice (Rect.unit (s := S2x2x64x4096) ![s.val, 0, 0, 0] S1x2x64x4096.size (inb_slot s)) (fun _ => rfl)).squeeze S2x64x4096 squeezes_S1x2x64x4096_S2x64x4096
/-- Band `b` of the field: both channels, rows `62 b + 1 … 62 b + 64`, all columns. -/
def band (b : Fin 66) : Memref sig .tc .hbm S2x64x4096 .f32 :=
  fieldM.slice (Rect.unit (s := S2x4096x4096) ![0, 62 * b.val + 1, 0] S2x64x4096.size (inb_band b)) (fun _ => rfl)
/-- Cell `s`, and its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 1 := by decide
theorem cellR_1 : cellR 1 = SemLoc.dma 2 := by decide

section Families
variable (c : Dev nD) (W : BufOf (F := F) c fieldM)
/-- Slot `s` borrows from its own half-share copy of the field. -/
abbrev qs (s : Fin 2) : PosShare TreeShare := if s.val = 0 then fullShare.left else fullShare.right
abbrev slotP (s : Fin 2) (f : BufOf (F := F) c (rslot s)) : sProp 𝕄 := (rslot s).view.loc (c : Thread nD τ) ↦[(rslot s).view.set]{fullShare} f
abbrev cellP (s : Fin 2) : sProp 𝕄 := semVal ((c : Thread nD τ), cellR s) 0
abbrev bandP (s : Fin 2) (b : Fin 66) : sProp 𝕄 := (band b).view.loc (c : Thread nD τ) ↦[(band b).view.set]{qs s} W
/-- The rest of slot `s`'s copy while band `b` is lent from it (folded: no run reads it). -/
def restP (s : Fin 2) (b : Fin 66) : sProp 𝕄 := ((c : Thread nD τ).loc main_v0) ↦[Finset.univ \ (band b).view.set]{qs s} W
abbrev copyP (s : Fin 2) : sProp 𝕄 := ((c : Thread nD τ).loc main_v0) ↦[Finset.univ]{qs s} W
/-- Slot `s` once band `b` has landed in it whole. -/
abbrev landed (s : Fin 2) (b : Fin 66) (f : BufOf (F := F) c (rslot s)) : BufOf (F := F) c (rslot s) :=
  (rslot s).view.writes (Elt F) f [⟨Rect.whole S2x64x4096, ReadAs.same.apply ((band b).view.read (Elt F) W)⟩]
abbrev flightP (s : Fin 2) (b : Fin 66) (f : BufOf (F := F) c (rslot s)) : sProp 𝕄 :=
  Transfers.Flight countersEmb (c : Thread nD τ) (cellR s) default ((rslot s).view.amount (cellR s))
    iprop(slotP c s (landed c W s b f) ∗ bandP c W s b)
abbrev slotW (s : Fin 2) (f : BufOf (F := F) c (rslot s)) : sProp 𝕄 := iprop(slotP c s f ∗ copyP c W s)
abbrev flightW (s : Fin 2) (b : Fin 66) (f : BufOf (F := F) c (rslot s)) : sProp 𝕄 := iprop(flightP c W s b f ∗ restP c W s b)
abbrev noHome (b : Fin 66) : sProp 𝕄 := iprop(emp)
/-- The ring before its step `k`. -/
def ringAt (k : ℕ) : sProp 𝕄 :=
  if k = 0 then Ring.At₀ (cellP c) (slotW c W) noHome
  else Ring.AtK 1 (cellP c) (slotW c W) noHome (flightW c W) (landed c W) k
omit [FloatOps F] in
theorem cellP_0 : cellP (F := F) c 0 = semVal ((c : Thread nD τ), SemLoc.dma 1) 0 := congrArg (fun x => (semVal ((c : Thread nD τ), x) 0 : sProp 𝕄)) cellR_0
omit [FloatOps F] in
theorem cellP_1 : cellP (F := F) c 1 = semVal ((c : Thread nD τ), SemLoc.dma 2) 0 := congrArg (fun x => (semVal ((c : Thread nD τ), x) 0 : sProp 𝕄)) cellR_1
end Families

/-! ### The slots are disjoint and cover the scratch -/

abbrev slotSet (s : Fin 2) : Finset S2x2x64x4096.Idx := (Rect.unit (s := S2x2x64x4096) ![s.val, 0, 0, 0] S1x2x64x4096.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x2x64x4096) (0 : Fin 4) 1 (fun s : Fin 2 => (![s.val, 0, 0, 0] : Fin 4 → Nat)) S1x2x64x4096.size inb_slot (fun s => by simp) rfl s s' h
theorem slots_cover : Finset.univ.biUnion slotSet = Finset.univ :=
  Ring.lead_cover (s := S2x2x64x4096) (0 : Fin 4) 1 (fun s : Fin 2 => (![s.val, 0, 0, 0] : Fin 4 → Nat)) S1x2x64x4096.size inb_slot (fun s => by simp)
    (fun s a ha => by fin_cases a <;> first | exact absurd rfl ha | rfl) rfl (fun a ha => by fin_cases a <;> first | exact absurd rfl ha | rfl) rfl

section InOut
variable (c : Dev nD) (W : BufOf (F := F) c fieldM)
theorem slotP_eq (s : Fin 2) (f) : slotP (F := F) c s f = (((c : Thread nD τ).loc cc0_scratch0) ↦[slotSet s]{fullShare} f : sProp 𝕄) := by
  unfold slotP; rw [slotSet_eq]; rfl
theorem copy_split (s : Fin 2) (b : Fin 66) : copyP (F := F) c W s ⊣⊢ iprop(bandP c W s b ∗ restP c W s b) := by
  unfold restP; exact pointsTo_split_subset (Finset.subset_univ _)
theorem field_split : (wholePt c fieldM W : sProp 𝕄) ⊣⊢ iprop(copyP c W 0 ∗ copyP c W 1) :=
  pointsTo_share (PosShare.mem_left_op_right fullShare)
set_option maxHeartbeats 1000000 in
theorem slots_in : iprop(∃ d, owns (c : Thread nD τ) ringM fullShare d) ⊢ (iprop((∃ f, slotP (F := F) c 0 f) ∗ ∃ f, slotP (F := F) c 1 f) : sProp 𝕄) := by
  simp only [ringM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) ringM fullShare d) := by
  simp only [ringM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- Into the ring: the scratch whole, the cells at zero and the field whole are the ring before its first step; -/
theorem ring_in (c : Dev nD) :
    iprop((∃ d, owns (c : Thread nD τ) ringM fullShare d) ∗ (semVal ((c : Thread nD τ), SemLoc.dma 1) 0 ∗ semVal ((c : Thread nD τ), SemLoc.dma 2) 0) ∗ wholePt c fieldM (V m c main_v0))
      ⊢ ringAt c (V m c main_v0) 0 := by
  unfold ringAt; rw [if_pos rfl]; unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (field_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and out of it after the last step. -/
theorem ring_out (c : Dev nD) :
    ringAt c (V m c main_v0) 66
      ⊢ iprop((∃ d, owns (c : Thread nD τ) ringM fullShare d) ∗ (semVal ((c : Thread nD τ), SemLoc.dma 1) 0 ∗ semVal ((c : Thread nD τ), SemLoc.dma 2) 0) ∗ wholePt c fieldM (V m c main_v0)) := by
  unfold ringAt; rw [if_neg (by decide)]
  iintro H
  ihave H' := (Ring.free2_of_AtK_last _ _ _ _ _) $$ H
  simp only [Ring.free, cellP_0, cellP_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (field_split (F := F) c (V m c main_v0)).2; isplitl [HW0]; · iexact HW0
    iexact HW1

/-! ### The body's operands at point `t` are the ring's slots, bands and cells -/

section Canon
omit [FloatOps F]
/-- Which ring step a point takes. -/
theorem step_first : ∀ t : Fin grid0.N, isFirst (grid0.coords t) → hasNext (grid0.coords t) → t.val = 0 ∧ (t.val + 1) = 1 := by decide +kernel
theorem step_mid : ∀ t : Fin grid0.N, ¬isFirst (grid0.coords t) → hasNext (grid0.coords t) → 1 ≤ t.val ∧ t.val + 1 < 66 := by decide +kernel
theorem step_last : ∀ t : Fin grid0.N, ¬isFirst (grid0.coords t) → ¬hasNext (grid0.coords t) → 1 ≤ t.val ∧ t.val + 1 = 66 := by decide +kernel

set_option synthInstance.maxSize 4096 in
theorem off_prime_slot : ∀ t : Fin grid0.N, isFirst (grid0.coords t) → (![0, 0, 0, 0] : Fin 4 → Nat) = ![(Ring.sl 2 t.val).val, 0, 0, 0] := by decide +kernel
@[sl_canon] theorem canon_prime_slot (t : Fin grid0.N) (h0 : isFirst (grid0.coords t)) :
    (ringM.slice (Rect.unit (s := S2x2x64x4096) ![0, 0, 0, 0] S1x2x64x4096.size inb_S2x2x64x4096_S1x2x64x4096_0_0_0_0) (fun _ => rfl)).squeeze S2x64x4096 squeezes_S1x2x64x4096_S2x64x4096 = rslot (Ring.sl 2 t.val) :=
  congrArg (fun M : Memref sig .tc .vmem S1x2x64x4096 .f32 => M.squeeze S2x64x4096 squeezes_S1x2x64x4096_S2x64x4096) (Memref.slice_unit_congr _ (off_prime_slot t h0) _ _ (fun _ => rfl) (fun _ => rfl))
set_option synthInstance.maxSize 4096 in
theorem off_prime_cell : ∀ t : Fin grid0.N, isFirst (grid0.coords t) → (![0] : Fin 1 → Nat) = ![(Ring.sl 2 t.val).val] := by decide +kernel
@[sl_canon] theorem canon_prime_cell (t : Fin grid0.N) (h0 : isFirst (grid0.coords t)) :
    (cc0_scratch1.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (off_prime_cell t h0) _ _)
set_option synthInstance.maxSize 4096 in
theorem off_prime_band : ∀ t : Fin grid0.N, isFirst (grid0.coords t) → (![0, 1, 0] : Fin 3 → Nat) = ![0, 62 * (Ring.bk 66 t.val).val + 1, 0] := by decide +kernel
@[sl_canon] theorem canon_prime_band (t : Fin grid0.N) (h0 : isFirst (grid0.coords t)) :
    fieldM.slice (Rect.unit (s := S2x4096x4096) ![0, 1, 0] S2x64x4096.size inb_S2x4096x4096_S2x64x4096_0_1_0) (fun _ => rfl) = band (Ring.bk 66 t.val) :=
  Memref.slice_unit_congr _ (off_prime_band t h0) _ _ (fun _ => rfl) (fun _ => rfl)

set_option synthInstance.maxSize 4096 in
theorem off_wait_cell : ∀ t : Fin grid0.N, k0_off1 (grid0.coords t) = ![(Ring.sl 2 t.val).val] := by decide +kernel
@[sl_canon] theorem canon_wait_cell (t : Fin grid0.N) :
    (cc0_scratch1.slice (Rect.unit (s := S2) (k0_off1 (grid0.coords t)) S1.size (k0_off1_inb (grid0.coords t)))).squeeze S_ squeezes_S1_S_ = cellA (Ring.sl 2 t.val) :=
  congrArg (fun A : DmaSems sig S1 => A.squeeze S_ squeezes_S1_S_) (SemArray.slice_unit_congr _ (off_wait_cell t) _ _)
set_option synthInstance.maxSize 4096 in
theorem off_wait_slot : ∀ t : Fin grid0.N, k0_off2 (grid0.coords t) = ![(Ring.sl 2 t.val).val, 0, 0, 0] := by decide +kernel
@[sl_canon] theorem canon_wait_slot (t : Fin grid0.N) :
    (ringM.slice (Rect.unit (s := S2x2x64x4096) (k0_off2 (grid0.coords t)) S1x2x64x4096.size (k0_off2_inb (grid0.coords t))) (fun _ => rfl)).squeeze S2x64x4096 squeezes_S1x2x64x4096_S2x64x4096 = rslot (Ring.sl 2 t.val) :=
  congrArg (fun M : Memref sig .tc .vmem S1x2x64x4096 .f32 => M.squeeze S2x64x4096 squeezes_S1x2x64x4096_S2x64x4096) (Memref.slice_unit_congr _ (off_wait_slot t) _ _ (fun _ => rfl) (fun _ => rfl))
set_option synthInstance.maxSize 4096 in
theorem off_wait_band : ∀ t : Fin grid0.N, k0_off3 (grid0.coords t) = ![0, 62 * (Ring.bk 66 t.val).val + 1, 0] := by decide +kernel
@[sl_canon] theorem canon_wait_band (t : Fin grid0.N) :
    fieldM.slice (Rect.unit (s := S2x4096x4096) (k0_off3 (grid0.coords t)) S2x64x4096.size (k0_off3_inb (grid0.coords t))) (fun _ => rfl) = band (Ring.bk 66 t.val) :=
  Memref.slice_unit_congr _ (off_wait_band t) _ _ (fun _ => rfl) (fun _ => rfl)

set_option synthInstance.maxSize 4096 in
theorem off_next_cell : ∀ t : Fin grid0.N, hasNext (grid0.coords t) → k0_off4 (grid0.coords t) = ![(Ring.sl 2 (t.val + 1)).val] := by decide +kernel
@[sl_canon] theorem canon_next_cell (t : Fin grid0.N) (h1 : hasNext (grid0.coords t)) :
    (cc0_scratch1.slice (Rect.unit (s := S2) (k0_off4 (grid0.coords t)) S1.size (k0_off4_inb (grid0.coords t) h1))).squeeze S_ squeezes_S1_S_ = cellA (Ring.sl 2 (t.val + 1)) :=
  congrArg (fun A : DmaSems sig S1 => A.squeeze S_ squeezes_S1_S_) (SemArray.slice_unit_congr _ (off_next_cell t h1) _ _)
set_option synthInstance.maxSize 4096 in
theorem off_next_slot : ∀ t : Fin grid0.N, hasNext (grid0.coords t) → k0_off5 (grid0.coords t) = ![(Ring.sl 2 (t.val + 1)).val, 0, 0, 0] := by decide +kernel
@[sl_canon] theorem canon_next_slot (t : Fin grid0.N) (h1 : hasNext (grid0.coords t)) :
    (ringM.slice (Rect.unit (s := S2x2x64x4096) (k0_off5 (grid0.coords t)) S1x2x64x4096.size (k0_off5_inb (grid0.coords t) h1)) (fun _ => rfl)).squeeze S2x64x4096 squeezes_S1x2x64x4096_S2x64x4096 = rslot (Ring.sl 2 (t.val + 1)) :=
  congrArg (fun M : Memref sig .tc .vmem S1x2x64x4096 .f32 => M.squeeze S2x64x4096 squeezes_S1x2x64x4096_S2x64x4096) (Memref.slice_unit_congr _ (off_next_slot t h1) _ _ (fun _ => rfl) (fun _ => rfl))
set_option synthInstance.maxSize 4096 in
theorem off_next_band : ∀ t : Fin grid0.N, hasNext (grid0.coords t) → k0_off6 (grid0.coords t) = ![0, 62 * (Ring.bk 66 (t.val + 1)).val + 1, 0] := by decide +kernel
@[sl_canon] theorem canon_next_band (t : Fin grid0.N) (h1 : hasNext (grid0.coords t)) :
    fieldM.slice (Rect.unit (s := S2x4096x4096) (k0_off6 (grid0.coords t)) S2x64x4096.size (k0_off6_inb (grid0.coords t) h1)) (fun _ => rfl) = band (Ring.bk 66 (t.val + 1)) :=
  Memref.slice_unit_congr _ (off_next_band t h1) _ _ (fun _ => rfl) (fun _ => rfl)

set_option synthInstance.maxSize 4096 in
theorem off_load0 : ∀ t : Fin grid0.N, k0_off7 (grid0.coords t) = ![(Ring.sl 2 t.val).val, 0, 0, 0] := by decide +kernel
set_option synthInstance.maxSize 4096 in
theorem off_load1 : ∀ t : Fin grid0.N, k0_off8 (grid0.coords t) = ![(Ring.sl 2 t.val).val, 1, 0, 0] := by decide +kernel
/-- The two loads' boxes in the slot's spelling: channel 0 and channel 1 of the slot this point waited for. -/
instance (priority := high) closedOff_load0 (t : Fin grid0.N) : ClosedOff (k0_off7 (grid0.coords t)) := ⟨![(Ring.sl 2 t.val).val, 0, 0, 0], off_load0 t⟩
instance (priority := high) closedOff_load1 (t : Fin grid0.N) : ClosedOff (k0_off8 (grid0.coords t)) := ⟨![(Ring.sl 2 t.val).val, 1, 0, 0], off_load1 t⟩
end Canon

end Cert.KernelIdeal.Stream

end
-- ==== Proof.KernelIdealRunMid.lean ====
/-
  A middle grid point (`1 ≤ t ≤ 64`) run once at a symbolic point: wait for band `t` in slot `t mod 2`, start band
  `t + 1` over the band slot `(t + 1) mod 2` still keeps, read band `t`'s two channels, and add the band's penalty
  sum into the accumulator. What the accumulator's one store writes is found by the run, as a list of pieces.
-/
import proofs.«111218_j23441931502078_1_alg».proof.Proof.KernelIdealNames

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def runMid (c : Dev nD) (t : Fin cfg0.N) (arg2 : Memref sig .tc .vmem S1x1 .f32) (harg2 : arg2.IsWhole)
    (hc0 : ¬isFirst (grid0.coords t)) (hc1 : hasNext (grid0.coords t)) (hc2 : ¬isLast (grid0.coords t))
    (a : Vec F S1x1 .f32) (W : BufOf (F := F) c fieldM) :
    { L : List (View.Piece (Elt F) S1x1 .f32) //
      ∀ (Wt : Waits sig Unit) (O : sProp 𝕄) (K : PUnit → sProp 𝕄),
        iprop(O ∗ owns (c : Thread nD τ) accM fullShare a
            ∗ Ring.inflight (flightW c W) (Ring.sl 2 t.val) (Ring.bk 66 t.val)
            ∗ Ring.kept (cellP c) (slotW c W) (landed c W) (Ring.sl 2 (t.val + 1)) (Ring.bk 66 (t.val - 1)) ∗ owes (c : Thread nD τ) 0 Wt
            ∗ (iprop(O ∗ (∃ f, accM.view.loc (c : Thread nD τ) ↦[accM.view.set]{fullShare} accM.view.writes (Elt F) f L)
                ∗ Ring.inflight (flightW c W) (Ring.sl 2 (t.val + 1)) (Ring.bk 66 (t.val + 1))
                ∗ Ring.kept (cellP c) (slotW c W) (landed c W) (Ring.sl 2 t.val) (Ring.bk 66 t.val) ∗ (∃ W', owes (c : Thread nD τ) 0 W')) -∗ K ⟨⟩))
          ⊢ wp frame (wpE (defs₀ (F := F)) Variants.none c none) Set.univ
              (cc0__jac_reg_kernel (grid0.coords t) fieldM (Memref.isWhole_whole _) arg2 harg2 ringM (Memref.isWhole_whole _) cc0_scratch1 accM (Memref.isWhole_whole _)) K } := by
  refine ⟨?_, fun Wt O K => ?run⟩
  case run =>
    haveI : Fact (¬isFirst (grid0.coords t)) := ⟨hc0⟩
    haveI : Fact (hasNext (grid0.coords t)) := ⟨hc1⟩
    haveI : Fact (¬isLast (grid0.coords t)) := ⟨hc2⟩
    simp only [cc0__jac_reg_kernel_eq_skeleton]; unfold cc0__jac_reg_kernel_skel
    simp only [k0_part1_eq_skeleton, k0_part2_eq_skeleton]; unfold k0_part1_skel k0_part2_skel
    unfold owns Ring.inflight Ring.kept
    iintro ⟨HO, ⟨%fa, %hfa, Ha⟩, ⟨%ff, Hf, Hrf⟩, ⟨Hc1, ⟨%fs1, Hs1, Hw1⟩⟩, HW, Hk⟩
    ihave Hsp1 := (copy_split c W (Ring.sl 2 (t.val + 1)) (Ring.bk 66 (t.val + 1))).1 $$ Hw1
    icases Hsp1 with ⟨Hh1, Hr1⟩
    obtain rfl := (Memref.isWhole_whole cc0_scratch2).eq_unread hfa
    sl_exec (disch := first | exact hc0 | exact hc1 | exact hc2)
    sl_step
    iapply Hk
    isplitl [HO]; · iexact HO
    isplitl [Ha]; · iexists _; iexact Ha
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (copy_split c W (Ring.sl 2 t.val) (Ring.bk 66 t.val)).2; isplitl [Hf_src]; · iexact Hf_src
      iexact Hrf
    iexists _; iexact HW

end Cert.KernelIdeal.Stream

end
-- ==== Proof.KernelIdealRunFirst.lean ====
/-
  The first grid point run once at a symbolic point: start band 0 into slot 0, clear the accumulator, wait for band 0,
  start band 1 into slot 1, read band 0's two channels and add the band's penalty sum into the cleared accumulator.
  What the accumulator's stores write is found by the run, as a list of pieces (last first).
-/
import proofs.«111218_j23441931502078_1_alg».proof.Proof.KernelIdealRunMid

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def runFirst (c : Dev nD) (t : Fin cfg0.N) (arg2 : Memref sig .tc .vmem S1x1 .f32) (harg2 : arg2.IsWhole)
    (hc0 : isFirst (grid0.coords t)) (hc1 : hasNext (grid0.coords t)) (hc2 : ¬isLast (grid0.coords t))
    (W : BufOf (F := F) c fieldM) :
    { L : List (View.Piece (Elt F) S1x1 .f32) //
      ∀ (Wt : Waits sig Unit) (O : sProp 𝕄) (K : PUnit → sProp 𝕄),
        iprop(O ∗ (∃ d, owns (c : Thread nD τ) accM fullShare d)
            ∗ Ring.free (cellP c) (slotW c W) (Ring.sl 2 t.val)
            ∗ Ring.free (cellP c) (slotW c W) (Ring.sl 2 (t.val + 1)) ∗ owes (c : Thread nD τ) 0 Wt
            ∗ (iprop(O ∗ (∃ f, accM.view.loc (c : Thread nD τ) ↦[accM.view.set]{fullShare} accM.view.writes (Elt F) f L)
                ∗ Ring.inflight (flightW c W) (Ring.sl 2 (t.val + 1)) (Ring.bk 66 (t.val + 1))
                ∗ Ring.kept (cellP c) (slotW c W) (landed c W) (Ring.sl 2 t.val) (Ring.bk 66 t.val) ∗ (∃ W', owes (c : Thread nD τ) 0 W')) -∗ K ⟨⟩))
          ⊢ wp frame (wpE (defs₀ (F := F)) Variants.none c none) Set.univ
              (cc0__jac_reg_kernel (grid0.coords t) fieldM (Memref.isWhole_whole _) arg2 harg2 ringM (Memref.isWhole_whole _) cc0_scratch1 accM (Memref.isWhole_whole _)) K } := by
  refine ⟨?_, fun Wt O K => ?run⟩
  case run =>
    haveI : Fact (isFirst (grid0.coords t)) := ⟨hc0⟩
    haveI : Fact (hasNext (grid0.coords t)) := ⟨hc1⟩
    haveI : Fact (¬isLast (grid0.coords t)) := ⟨hc2⟩
    simp only [cc0__jac_reg_kernel_eq_skeleton]; unfold cc0__jac_reg_kernel_skel
    simp only [k0_part1_eq_skeleton, k0_part2_eq_skeleton]; unfold k0_part1_skel k0_part2_skel
    have hcanon0 := canon_prime_slot t hc0
    have hcanon1 := canon_prime_cell t hc0
    have hcanon2 := canon_prime_band t hc0
    unfold owns Ring.free Ring.inflight Ring.kept
    iintro ⟨HO, ⟨%d, %fa, -, Ha⟩, ⟨Hc0, ⟨%fs0, Hs0, Hw0⟩⟩, ⟨Hc1, ⟨%fs1, Hs1, Hw1⟩⟩, HW, Hk⟩
    ihave Hsp0 := (copy_split c W (Ring.sl 2 t.val) (Ring.bk 66 t.val)).1 $$ Hw0
    icases Hsp0 with ⟨Hh0, Hr0⟩
    ihave Hsp1 := (copy_split c W (Ring.sl 2 (t.val + 1)) (Ring.bk 66 (t.val + 1))).1 $$ Hw1
    icases Hsp1 with ⟨Hh1, Hr1⟩
    sl_exec (disch := first | exact hc0 | exact hc1 | exact hc2)
    sl_step
    iapply Hk
    isplitl [HO]; · iexact HO
    isplitl [Ha]; · iexists _; iexact Ha
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (copy_split c W (Ring.sl 2 t.val) (Ring.bk 66 t.val)).2; isplitl [Hh0]; · iexact Hh0
      iexact Hr0
    iexists _; iexact HW

end Cert.KernelIdeal.Stream

end
-- ==== Proof.KernelIdealRunLast.lean ====
/-
  The last grid point run once at a symbolic point: wait for band 65, read its two channels, add the band's penalty
  sum into the accumulator, and copy the accumulator into the output window's staging buffer. What the two stores
  write is found by the run, as lists of pieces: the accumulator's, then the output's.
-/
import proofs.«111218_j23441931502078_1_alg».proof.Proof.KernelIdealRunFirst

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def runLast (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t))
    (a : Vec F S1x1 .f32) (W : BufOf (F := F) c fieldM) :
    { L : List (View.Piece (Elt F) S1x1 .f32) × List (View.Piece (Elt F) S1x1 .f32) //
      ∀ (Wt : Waits sig Unit) (K : PUnit → sProp 𝕄),
        iprop((∃ d, owns (c : Thread nD τ) arg2 fullShare d) ∗ owns (c : Thread nD τ) accM fullShare a
            ∗ Ring.inflight (flightW c W) (Ring.sl 2 t.val) (Ring.bk 66 t.val) ∗ owes (c : Thread nD τ) 0 Wt
            ∗ (iprop((∃ f, arg2.view.loc (c : Thread nD τ) ↦[arg2.view.set]{fullShare} arg2.view.writes (Elt F) f L.2)
                ∗ (∃ f, accM.view.loc (c : Thread nD τ) ↦[accM.view.set]{fullShare} accM.view.writes (Elt F) f L.1)
                ∗ Ring.kept (cellP c) (slotW c W) (landed c W) (Ring.sl 2 t.val) (Ring.bk 66 t.val) ∗ (∃ W', owes (c : Thread nD τ) 0 W')) -∗ K ⟨⟩))
          ⊢ wp frame (wpE (defs₀ (F := F)) Variants.none c none) Set.univ
              (cc0__jac_reg_kernel (grid0.coords t) fieldM (Memref.isWhole_whole _) arg2 harg2 ringM (Memref.isWhole_whole _) cc0_scratch1 accM (Memref.isWhole_whole _)) K } := by
  refine ⟨⟨?_, ?_⟩, fun Wt K => ?run⟩
  case run =>
    haveI : Fact (¬isFirst (grid0.coords t)) := ⟨hc0⟩
    haveI : Fact (¬hasNext (grid0.coords t)) := ⟨hc1⟩
    haveI : Fact (isLast (grid0.coords t)) := ⟨hc2⟩
    simp only [cc0__jac_reg_kernel_eq_skeleton]; unfold cc0__jac_reg_kernel_skel
    simp only [k0_part1_eq_skeleton, k0_part2_eq_skeleton]; unfold k0_part1_skel k0_part2_skel
    unfold owns Ring.inflight Ring.kept
    iintro ⟨⟨%d2, %f2, -, H2⟩, ⟨%fa, %hfa, Ha⟩, ⟨%ff, Hf, Hrf⟩, HW, Hk⟩
    obtain rfl := (Memref.isWhole_whole cc0_scratch2).eq_unread hfa
    sl_exec (disch := first | exact hc0 | exact hc1 | exact hc2)
    sl_step
    iapply Hk
    isplitl [H2]; · iexists _; iexact H2
    isplitl [Ha]; · iexists _; iexact Ha
    isplitl [Hf Hf_dst Hf_src Hrf]
    · isplitl [Hf]; · iexact Hf
      iexists _; isplitl [Hf_dst]; · iexact Hf_dst
      iapply (copy_split c W (Ring.sl 2 t.val) (Ring.bk 66 t.val)).2; isplitl [Hf_src]; · iexact Hf_src
      iexact Hrf
    iexists _; iexact HW

end Cert.KernelIdeal.Stream

end
-- ==== Proof.KernelIdealFrame.lean ====
/-
  The streaming kernel's run over the whole grid (any float instance): what the accumulator holds after each of the 66
  points, by recursion on the point, each step one of the three cases' found stores; the invariant between points
  (the accumulator at that value, the ring at its step, the generator register at anything); the body obligation at
  every point; and the launch. The output window is stored at the last point only and written back there.
-/
import proofs.«111218_j23441931502078_1_alg».proof.Proof.KernelIdealRunLast

set_option maxRecDepth 16384

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What each case leaves in the accumulator and, at the last point, in the output's staging buffer -/

theorem coverFirst (c : Dev nD) (t : Fin cfg0.N) (arg2 : Memref sig .tc .vmem S1x1 .f32) (harg2 : arg2.IsWhole)
    (hc0 : isFirst (grid0.coords t)) (hc1 : hasNext (grid0.coords t)) (hc2 : ¬isLast (grid0.coords t)) (W : BufOf (F := F) c fieldM) (y : S1x1.Idx) :
    ∃ pc ∈ (runFirst c t arg2 harg2 hc0 hc1 hc2 W).1, y ∈ pc.1.set :=
  View.cover_of_tiledL (runFirst c t arg2 harg2 hc0 hc1 hc2 W).1 S1x1.size (by sl_kernel_rfl) y
def accFirst (c : Dev nD) (t : Fin cfg0.N) (arg2 : Memref sig .tc .vmem S1x1 .f32) (harg2 : arg2.IsWhole)
    (hc0 : isFirst (grid0.coords t)) (hc1 : hasNext (grid0.coords t)) (hc2 : ¬isLast (grid0.coords t)) (W : BufOf (F := F) c fieldM) : Vec F S1x1 .f32 :=
  View.canon (runFirst c t arg2 harg2 hc0 hc1 hc2 W).1

theorem coverMid (c : Dev nD) (t : Fin cfg0.N) (arg2 : Memref sig .tc .vmem S1x1 .f32) (harg2 : arg2.IsWhole)
    (hc0 : ¬isFirst (grid0.coords t)) (hc1 : hasNext (grid0.coords t)) (hc2 : ¬isLast (grid0.coords t)) (a : Vec F S1x1 .f32) (W : BufOf (F := F) c fieldM) (y : S1x1.Idx) :
    ∃ pc ∈ (runMid c t arg2 harg2 hc0 hc1 hc2 a W).1, y ∈ pc.1.set :=
  View.cover_of_tiledL (runMid c t arg2 harg2 hc0 hc1 hc2 a W).1 S1x1.size (by sl_kernel_rfl) y
def accMid (c : Dev nD) (t : Fin cfg0.N) (arg2 : Memref sig .tc .vmem S1x1 .f32) (harg2 : arg2.IsWhole)
    (hc0 : ¬isFirst (grid0.coords t)) (hc1 : hasNext (grid0.coords t)) (hc2 : ¬isLast (grid0.coords t)) (a : Vec F S1x1 .f32) (W : BufOf (F := F) c fieldM) : Vec F S1x1 .f32 :=
  View.canon (runMid c t arg2 harg2 hc0 hc1 hc2 a W).1

theorem coverLastAcc (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec F S1x1 .f32) (W : BufOf (F := F) c fieldM) (y : S1x1.Idx) :
    ∃ pc ∈ (runLast c t arg2 harg2 hc0 hc1 hc2 a W).1.1, y ∈ pc.1.set :=
  View.cover_of_tiledL (runLast c t arg2 harg2 hc0 hc1 hc2 a W).1.1 S1x1.size (by sl_kernel_rfl) y
theorem coverLastOut (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec F S1x1 .f32) (W : BufOf (F := F) c fieldM) (y : S1x1.Idx) :
    ∃ pc ∈ (runLast c t arg2 harg2 hc0 hc1 hc2 a W).1.2, y ∈ pc.1.set :=
  View.cover_of_tiledL (runLast c t arg2 harg2 hc0 hc1 hc2 a W).1.2 S1x1.size (by sl_kernel_rfl) y
def accLast (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec F S1x1 .f32) (W : BufOf (F := F) c fieldM) : Vec F S1x1 .f32 :=
  View.canon (runLast c t arg2 harg2 hc0 hc1 hc2 a W).1.1
def outLast (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec F S1x1 .f32) (W : BufOf (F := F) c fieldM) : Vec F S1x1 .f32 :=
  View.canon (runLast c t arg2 harg2 hc0 hc1 hc2 a W).1.2

/-! ## The accumulator after each point -/

theorem N_66 : cfg0.N = 66 := N_0
theorem lt_N {n : ℕ} (h : n < 66) : n < cfg0.N := lt_of_lt_of_eq h N_66.symm

/-- Point number `n` of the grid. -/
abbrev pt (n : ℕ) (h : n < 66) : Fin cfg0.N := ⟨n, lt_N h⟩

/-- The accumulator after point `n`: the first point's stores, then each later point's over what the point before left. -/
def accV (c : Dev nD) : ℕ → Vec F S1x1 .f32
  | 0 => accFirst c (pt 0 (by decide)) (outM (pt 0 (by decide))) (outM_whole (pt 0 (by decide))) ((isFirst_iff (pt 0 (by decide))).mpr rfl) ((hasNext_iff (pt 0 (by decide))).mpr (by decide))
      (fun h => absurd ((isLast_iff (pt 0 (by decide))).mp h) (by decide)) (V m c main_v0)
  | n + 1 =>
    if h : n + 1 < 65 then
      accMid c (pt (n + 1) (by omega)) (outM (pt (n + 1) (by omega))) (outM_whole (pt (n + 1) (by omega)))
        (fun h0 => absurd ((isFirst_iff (pt (n + 1) (by omega))).mp h0) (Nat.succ_ne_zero n)) ((hasNext_iff (pt (n + 1) (by omega))).mpr h)
        (fun h2 => absurd ((isLast_iff (pt (n + 1) (by omega))).mp h2) (by show ¬ n + 1 = 65; omega)) (accV c n) (V m c main_v0)
    else if h' : n + 1 = 65 then
      accLast c (pt (n + 1) (by omega)) (outM (pt (n + 1) (by omega))) (outM_whole (pt (n + 1) (by omega)))
        (fun h0 => absurd ((isFirst_iff (pt (n + 1) (by omega))).mp h0) (Nat.succ_ne_zero n)) (fun h1 => h ((hasNext_iff (pt (n + 1) (by omega))).mp h1))
        ((isLast_iff (pt (n + 1) (by omega))).mpr h') (accV c n) (V m c main_v0)
    else accV c n

theorem accV_first (c : Dev nD) (t : Fin cfg0.N) (h0 : isFirst (grid0.coords t)) (h1 : hasNext (grid0.coords t)) (h2 : ¬isLast (grid0.coords t)) :
    accV m c t.val = accFirst c t (outM t) (outM_whole t) h0 h1 h2 (V m c main_v0) := by
  obtain ⟨n, hn⟩ := t
  have hz : n = 0 := (isFirst_iff ⟨n, hn⟩).mp h0
  subst hz; rfl
theorem accV_mid (c : Dev nD) (t : Fin cfg0.N) (h0 : ¬isFirst (grid0.coords t)) (h1 : hasNext (grid0.coords t)) (h2 : ¬isLast (grid0.coords t)) :
    accV m c t.val = accMid c t (outM t) (outM_whole t) h0 h1 h2 (accV m c (t.val - 1)) (V m c main_v0) := by
  obtain ⟨n, hn⟩ := t
  cases n with
  | zero => exact absurd ((isFirst_iff ⟨0, hn⟩).mpr rfl) h0
  | succ n =>
    have hlt : n + 1 < 65 := (hasNext_iff ⟨n + 1, hn⟩).mp h1
    show (if h : n + 1 < 65 then _ else _) = _
    rw [dif_pos hlt]; rfl
theorem accV_last (c : Dev nD) (t : Fin cfg0.N) (h0 : ¬isFirst (grid0.coords t)) (h1 : ¬hasNext (grid0.coords t)) (h2 : isLast (grid0.coords t)) :
    accV m c t.val = accLast c t (outM t) (outM_whole t) h0 h1 h2 (accV m c (t.val - 1)) (V m c main_v0) := by
  obtain ⟨n, hn⟩ := t
  cases n with
  | zero => exact absurd ((isFirst_iff ⟨0, hn⟩).mpr rfl) h0
  | succ n =>
    have hnl : ¬ n + 1 < 65 := fun h => h1 ((hasNext_iff ⟨n + 1, hn⟩).mpr h)
    have h65 : n + 1 = 65 := (isLast_iff ⟨n + 1, hn⟩).mp h2
    show (if h : n + 1 < 65 then _ else _) = _
    rw [dif_neg hnl, dif_pos h65]; rfl

/-- What the output's staging buffer holds after the body: read only at the last point, where it is the stored accumulator. -/
def outAt (c : Dev nD) (t : Fin cfg0.N) : Vec F S1x1 .f32 :=
  if h : isLast (grid0.coords t) then
    outLast c t (outM t) (outM_whole t) (fun h0 => by have := (isFirst_iff t).mp h0; have := (isLast_iff t).mp h; omega)
      (fun h1 => by have := (hasNext_iff t).mp h1; have := (isLast_iff t).mp h; omega) h (accV m c (t.val - 1)) (V m c main_v0)
  else accV m c t.val

/-! ## The proof data -/

/-- The accumulator before point `k`: anything before the first point, else what point `k - 1` left. -/
def accPart (c : Dev nD) (k : ℕ) : sProp 𝕄 :=
  if k = 0 then iprop(∃ d, owns (c : Thread nD τ) accM fullShare d) else owns (c : Thread nD τ) accM fullShare (accV m c (k - 1))
/-- The invariant before point `k`. -/
def PhiS (c : Dev nD) (k : ℕ) : sProp 𝕄 := iprop(accPart m c k ∗ (∃ r, prngReg c r) ∗ ringAt c (V m c main_v0) k)

def dats (_ : Fin 1) (c : Dev nD) : Dat τ (Elt F) Unit ℕ (Pipeline.UD sig nD τ) ℕ cfg0 c where
  A w := V m c (Pipeline.arrRef spec0 w)
  after w t := match w with
    | ⟨0, _⟩ => outAt m c t
  Φ t := PhiS m c t.val
  q _ := fullShare
  owed _ := 0

theorem A_eq (c : Dev nD) (w : Fin cfg0.W) : (dats m 0 c).A w = V m c (Pipeline.arrRef spec0 w) := by dsimp only [dats]
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]
theorem after_0 (c : Dev nD) (t : Fin cfg0.N) : (dats m 0 c).after 0 t = outAt m c t := by dsimp only [dats]

/-- The output window is idle except at the last point, and written back exactly there. -/
theorem idle_of_last (t : Fin cfg0.N) (h : isLast (grid0.coords t)) : idle0 0 (grid0.coords t) = false := by
  show (!(k0_cond3 (grid0.coords t) == 1#1)) = false; rw [show (k0_cond3 (grid0.coords t) == 1#1) = true from beq_iff_eq.mpr h]; rfl
theorem idle_of_not_last (t : Fin cfg0.N) (h : ¬isLast (grid0.coords t)) : idle0 0 (grid0.coords t) = true := by
  show (!(k0_cond3 (grid0.coords t) == 1#1)) = true; rw [show (k0_cond3 (grid0.coords t) == 1#1) = false from beq_eq_false_iff_ne.mpr h]; rfl
theorem flush_of_last (t : Fin cfg0.N) (h : isLast (grid0.coords t)) : (cfg0.win 0).flush t = true :=
  (flush0_0 t).mpr (by have := (isLast_iff t).mp h; omega)
theorem flush_of_not_last (t : Fin cfg0.N) (h : ¬isLast (grid0.coords t)) : (cfg0.win 0).flush t = false :=
  Bool.eq_false_iff.mpr fun hf => h ((isLast_iff t).mpr (by have := (flush0_0 t).mp hf; have := lt_of_lt_of_eq t.isLt N_66; omega))

/-! ## The body obligation -/

set_option maxHeartbeats 2000000 in
theorem body_obligation (c : Dev nD) : BodyObligation (dats (F := F) m 0 c) (defs₀ (F := F)) Variants.none () Set.univ := fun t => by
  rw [bigSep_W0, bigSep_W0]
  unfold Dat.owesAt Pipeline.owesWithin
  rw [show (dats m 0 c).owed t.castSucc = 0 from rfl, show (dats m 0 c).owed t.succ = 0 from rfl]
  rw [Phi_castSucc m c t, Phi_succ m c t]
  unfold PhiS ringAt accPart
  have hN : t.val < 66 := lt_of_lt_of_eq t.isLt N_66
  by_cases hL : isLast (grid0.coords t)
  · -- the last point
    have h65 : t.val = 65 := (isLast_iff t).mp hL
    have hF : ¬isFirst (grid0.coords t) := fun h => by have := (isFirst_iff t).mp h; omega
    have hX : ¬hasNext (grid0.coords t) := fun h => by have := (hasNext_iff t).mp h; omega
    simp only [idle_of_last t hL, flush_of_last t hL, after_0]
    obtain ⟨hK1, hKB⟩ := step_last t hF hX
    rw [if_neg (show ¬t.val = 0 by omega), if_neg (show ¬t.val + 1 = 0 by omega), if_neg (show ¬t.val = 0 by omega), if_neg (show ¬t.val + 1 = 0 by omega)]
    rw [Ring.AtK2_here_last _ _ _ _ _ t.val hK1 hKB, Ring.AtK2_next_last _ _ _ _ _ t.val hK1 hKB]
    rw [show t.val + 1 - 1 = t.val by omega, accV_last m c t hF hX hL, show outAt m c t = outLast c t (outM t) (outM_whole t) hF hX hL (accV m c (t.val - 1)) (V m c main_v0) from dif_pos hL]
    unfold accLast outLast
    iintro ⟨⟨Hacc, Hg, ⟨-, Hfl, Hkp⟩⟩, ⟨%Wt, -, HW⟩, ⟨%d1, H1⟩⟩
    iapply ((runLast c t (outM t) (outM_whole t) hF hX hL (accV m c (t.val - 1)) (V m c main_v0)).2 Wt _)
    isplitl [H1]; · iexists _; iexact H1
    isplitl [Hacc]; · iexact Hacc
    isplitl [Hfl]; · iexact Hfl
    isplitl [HW]; · iexact HW
    iintro ⟨⟨%f2, H2⟩, ⟨%fa, Ha⟩, Hkp', ⟨%W', HW'⟩⟩
    isplitl [Ha Hg Hkp Hkp']
    · isplitl [Ha]
      · unfold owns; iexists _; isplitr; swap; · iexact Ha
        ipureintro; exact View.read_writes_eq_canon _ _ _ (coverLastAcc c _ _ _ _ _ _ _ _)
      isplitl [Hg]; · iexact Hg
      iapply (Ring.with_homes (Idealize.SL.BI.Entails.refl _))
      isplitl [Hkp]; · iexact Hkp
      iexact Hkp'
    isplitl [HW']
    · iexists W'; isplitr; · ipureintro; exact fun _ _ => Or.inl trivial
      iexact HW'
    unfold owns; iexists _; isplitr; swap; · iexact H2
    ipureintro; exact View.read_writes_eq_canon _ _ _ (coverLastOut c _ _ _ _ _ _ _ _)
  · simp only [idle_of_not_last t hL, flush_of_not_last t hL]
    have hX : hasNext (grid0.coords t) := (hasNext_iff t).mpr (by have : t.val ≠ 65 := fun h => hL ((isLast_iff t).mpr h); omega)
    by_cases hF : isFirst (grid0.coords t)
    · -- the first point
      obtain ⟨hK0, hK1⟩ := step_first t hF hX
      rw [if_pos hK0, if_neg (show ¬t.val + 1 = 0 by omega), if_pos hK0, if_neg (show ¬t.val + 1 = 0 by omega)]
      rw [Ring.At₀_eq2' _ _ _ t.val hK0 (by decide : 2 ≤ 66), Ring.AtK2_one' _ _ _ _ _ t.val hK0 (by decide : 1 < 66)]
      rw [show t.val + 1 - 1 = t.val by omega, accV_first m c t hF hX hL]
      unfold accFirst
      iintro ⟨⟨Hacc, Hg, ⟨-, Hfr0, Hfr1⟩⟩, ⟨%Wt, -, HW⟩, H1⟩
      iapply ((runFirst c t (outM t) (outM_whole t) hF hX hL (V m c main_v0)).2 Wt _ _)
      isplitl [H1]; · iexact H1
      isplitl [Hacc]; · iexact Hacc
      isplitl [Hfr0]; · iexact Hfr0
      isplitl [Hfr1]; · iexact Hfr1
      isplitl [HW]; · iexact HW
      iintro ⟨H1, ⟨%fa, Ha⟩, Hfl', Hkp', ⟨%W', HW'⟩⟩
      isplitl [Ha Hg Hfl' Hkp']
      · isplitl [Ha]
        · unfold owns; iexists _; isplitr; swap; · iexact Ha
          ipureintro; exact View.read_writes_eq_canon _ _ _ (coverFirst c _ _ _ _ _ _ _)
        isplitl [Hg]; · iexact Hg
        iapply Ring.with_homes₀
        isplitl [Hfl']; · iexact Hfl'
        iexact Hkp'
      isplitl [HW']
      · iexists W'; isplitr; · ipureintro; exact fun _ _ => Or.inl trivial
        iexact HW'
      iexact H1
    · -- a middle point
      obtain ⟨hK1, hKB⟩ := step_mid t hF hX
      rw [if_neg (show ¬t.val = 0 by omega), if_neg (show ¬t.val + 1 = 0 by omega), if_neg (show ¬t.val = 0 by omega), if_neg (show ¬t.val + 1 = 0 by omega)]
      rw [Ring.AtK2_here _ _ _ _ _ t.val hK1 hKB, Ring.AtK2_next _ _ _ _ _ t.val hK1 hKB]
      rw [show t.val + 1 - 1 = t.val by omega, accV_mid m c t hF hX hL]
      unfold accMid
      iintro ⟨⟨Hacc, Hg, ⟨-, Hfl, Hkp⟩⟩, ⟨%Wt, -, HW⟩, H1⟩
      iapply ((runMid c t (outM t) (outM_whole t) hF hX hL (accV m c (t.val - 1)) (V m c main_v0)).2 Wt _ _)
      isplitl [H1]; · iexact H1
      isplitl [Hacc]; · iexact Hacc
      isplitl [Hfl]; · iexact Hfl
      isplitl [Hkp]; · iexact Hkp
      isplitl [HW]; · iexact HW
      iintro ⟨H1, ⟨%fa, Ha⟩, Hfl', Hkp', ⟨%W', HW'⟩⟩
      isplitl [Ha Hg Hfl' Hkp']
      · isplitl [Ha]
        · unfold owns; iexists _; isplitr; swap; · iexact Ha
          ipureintro; exact View.read_writes_eq_canon _ _ _ (coverMid c _ _ _ _ _ _ _ _)
        isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      iexact H1

/-! ## The launch -/

theorem hin (c : Dev nD) : Pipeline.ΦD osem spec0 moved (V m) c ⊢ (dats m 0 c).Φ 0 := by
  rw [launchInv_eq, show (dats m 0 c).Φ 0 = PhiS m c 0 from rfl]
  unfold PhiS accPart; rw [if_pos rfl]
  iintro ⟨⟨HR, HA⟩, Hg, ⟨Hq0, Hq1⟩, Hh⟩
  isplitl [HA]; · iexact HA
  isplitl [Hg]; · iexact Hg
  iapply (ring_in (F := F) m c)
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD osem spec0 moved (V m) c := by
  rw [launchInv_eq, show (dats m 0 c).Φ (Fin.last cfg0.N) = PhiS m c grid0.N from rfl]
  unfold PhiS accPart
  rw [show grid0.N = 66 by rw [N_0], if_neg (by decide)]
  iintro ⟨HA, Hg, HR⟩
  ihave HX := (ring_out (F := F) m c) $$ HR
  icases HX with ⟨HR, ⟨Hq0, Hq1⟩, Hh⟩
  isplitl [HR HA]
  · isplitl [HR]; · iexact HR
    iexists _; iexact HA
  isplitl [Hg]; · iexact Hg
  isplitl [Hq0 Hq1]
  · isplitl [Hq0]; · iexact Hq0
    iexact Hq1
  iexact Hh

/-- The host lines after the region touch the output array and buffers of their own, never the field the kernel moves. -/
theorem tail_sub : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  subst hops
  refine Pipeline.sub_tailRefsBut Pipeline.Prefetch.none spec0 moved op ((List.forall_iff_forall_mem.mp hostOps1_sub) op hop) (fun k => k.elim0) ?_
  intro b hb
  simp only [moved, Finset.mem_singleton] at hb; subst hb
  simp only [hostOps1, List.mem_cons, List.mem_nil_iff, or_false] at hop
  rcases hop with rfl | rfl | rfl
  all_goals simp only [StableHlo.reshape_bufs, StableHlo.nullary_bufs, StableHlo.binary_bufs, Finset.mem_insert, Finset.mem_singleton, not_or]
  all_goals (repeat' apply And.intro)
  all_goals exact StableHlo.devRef_ne_of_ne (by decide)

set_option backward.isDefEq.respectTransparency.types false in
/-- Every weakly fair execution of @main on the TensorCores terminates, without a fault; the output array ends at the
    library's account of its window and every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem defs₀ Variants.none ownSemFacts moved moved_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := hin m) (hout := hout m)

/-- No host operation after the region writes the argument: it ends as launched. -/
theorem tail_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The frame: the program runs to the end, faults nowhere, and leaves its argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (tail_main_arg0 m c))) (run_main m ρ)

end Cert.KernelIdeal.Stream

end
-- ==== Proof.JacPenalty.lean ====
/-
  The quantity both programs compute, stated once over plain coordinates.

  A two-channel displacement field `x ch a b` (channel, row, column; rows and columns as natural numbers) is
  differenced centrally along rows and along columns, the 2×2 Jacobian `[[dy0 + 1, dy1], [dx0, dx1 + 1]]` of the
  deformed grid is formed at every interior pixel, and the penalty of a pixel is the square of the negative part of
  its determinant. The regulariser is the mean of the penalty over the 4092 × 4092 interior pixels.

  A pixel's penalty reads a 3 × 3 neighbourhood: `pen y i j` reads rows `i … i + 2` and columns `j + 1 … j + 3`
  of the field `y`. Reading the field from a row offset (`win x r0`) makes the same formula serve a band of rows:
  band `t` (62 pixel rows) reads the 64 field rows from `62 t + 1` on.
-/
import Idealize.ShloMosaic.PureOps.Ideal

noncomputable section

namespace Cert.JacPenalty

open Idealize.ShloMosaic

/-- The three float literals of the computation, kept as their words: one half (the central difference's weight),
    one (the identity's diagonal), and the pixel count 4092 · 4092 = 16744464. -/
abbrev half : EReal := Ideal.ofBits .f32 0x3F000000#32
abbrev one : EReal := Ideal.ofBits .f32 0x3F800000#32
abbrev count : EReal := Ideal.ofBits .f32 0x4B7F8010#32

/-- The penalty of the pixel whose neighbourhood starts at row `i`, column `j + 1` of `y`:
    `max (-det) 0` squared, `det = (dy0 + 1) (dx1 + 1) - dx0 dy1`, each difference central and halved. -/
def pen (y : Fin 2 → ℕ → ℕ → EReal) (i j : ℕ) : EReal :=
  let dy0 := (y 0 i (j + 2) - y 0 (i + 2) (j + 2)) * half
  let dy1 := (y 1 i (j + 2) - y 1 (i + 2) (j + 2)) * half
  let dx0 := (y 0 (i + 1) (j + 1) - y 0 (i + 1) (j + 3)) * half
  let dx1 := (y 1 (i + 1) (j + 1) - y 1 (i + 1) (j + 3)) * half
  let det := (dy0 + one) * (dx1 + one) - dx0 * dy1
  max (-det) 0 * max (-det) 0

/-- The field read from row `r0` on. -/
def win (x : Fin 2 → ℕ → ℕ → EReal) (r0 : ℕ) : Fin 2 → ℕ → ℕ → EReal := fun ch a b => x ch (r0 + a) b

/-- The penalty summed over band `t`: 62 pixel rows, all 4092 pixel columns, read from field row `62 t + 1`. -/
def tile (x : Fin 2 → ℕ → ℕ → EReal) (t : ℕ) : EReal :=
  ∑ ii : Fin 62, ∑ jj : Fin 4092, pen (win x (62 * t + 1)) ii.val jj.val

/-- The penalty summed over every interior pixel, read from field row 1. -/
def total (x : Fin 2 → ℕ → ℕ → EReal) : EReal :=
  ∑ r : Fin 4092, ∑ c : Fin 4092, pen (win x 1) r.val c.val

/-- The regulariser: the total over the pixel count. -/
def mean (x : Fin 2 → ℕ → ℕ → EReal) : EReal := Ideal.div (total x) count

/-- The running sum of the bands before band `n`, accumulated from zero in the bands' order. -/
def accAt (x : Fin 2 → ℕ → ℕ → EReal) : ℕ → EReal
  | 0 => 0
  | n + 1 => accAt x n + tile x n

end Cert.JacPenalty

end
-- ==== Proof.BandValue.lean ====
/-
  One band's arithmetic.

  A band holds 64 rows of the two channels (all 4096 columns). Its 62 × 4092 pixels are differenced, combined into the
  determinant, negated, clipped at zero and squared exactly as the pixel penalty prescribes, reading the band's rows
  `ii … ii + 2` and columns `jj + 1 … jj + 3` at pixel `(ii, jj)`; the squares are summed along each row, the row sums
  are summed, and the total is added to the running sum. So the new running sum is the old one plus the band's total
  penalty, with the band itself as the field.
-/
import proofs.«111218_j23441931502078_1_alg».proof.Proof.Gen.KernelIdeal.Skeleton
import proofs.«111218_j23441931502078_1_alg».proof.Proof.JacPenalty
import Idealize.ShloMosaic.Lib.ValueIdx
import Idealize.ShloMosaic.Lib.Pipeline.Value
import Idealize.ShloMosaic.PureOps.Ideal.Laws

noncomputable section

namespace Cert.KernelIdeal.BandValue

open Cert.KernelIdeal Cert.KernelIdeal.Gen Cert.JacPenalty
open Idealize.ShloMosaic Idealize.ShloMosaic.ValueIdx

/-- The band's two channel slabs (each of shape [1, 1, 64, 4096]) as a field by channel, row and column; zero
    outside the band. -/
def slotField (v25 v28 : S1x1x64x4096.Idx → EReal) : Fin 2 → ℕ → ℕ → EReal :=
  fun ch r col => if h : r < 64 ∧ col < 4096 then
    (if ch = 0 then v25 else v28) (ix4 (0 : Fin 1) (0 : Fin 1) ⟨r, h.1⟩ ⟨col, h.2⟩) else 0

/-- Channel 0's slab re-read as a 64 × 4096 array is the band's field at channel 0. -/
theorem pay2_at (v25 v28 : Vec Ideal S1x1x64x4096 .f32) (i : S64x4096.Idx) :
    k0_pay2 (F := Ideal) v25 i = slotField v25 v28 0 (i 0).val (i 1).val := by
  have h0 : (i 0).val < 64 := (i 0).isLt
  have h1 : (i 1).val < 4096 := (i 1).isLt
  unfold k0_pay2 slotField
  rw [dif_pos ⟨h0, h1⟩, if_pos rfl]
  exact shapeCast_apply v25 shapeCasts_S1x1x64x4096_S64x4096 i _ (by
    rw [Shape.rowMajor_val_four, Shape.rowMajor_val_two]
    show ((0 * 1 + 0) * 64 + (i 0).val) * 4096 + (i 1).val = (i 0).val * 4096 + (i 1).val
    omega)

/-- Channel 1's slab re-read as a 64 × 4096 array is the band's field at channel 1. -/
theorem pay3_at (v25 v28 : Vec Ideal S1x1x64x4096 .f32) (i : S64x4096.Idx) :
    k0_pay3 (F := Ideal) v28 i = slotField v25 v28 1 (i 0).val (i 1).val := by
  have h0 : (i 0).val < 64 := (i 0).isLt
  have h1 : (i 1).val < 4096 := (i 1).isLt
  unfold k0_pay3 slotField
  rw [dif_pos ⟨h0, h1⟩, if_neg (by decide)]
  exact shapeCast_apply v28 shapeCasts_S1x1x64x4096_S64x4096 i _ (by
    rw [Shape.rowMajor_val_four, Shape.rowMajor_val_two]
    show ((0 * 1 + 0) * 64 + (i 0).val) * 4096 + (i 1).val = (i 0).val * 4096 + (i 1).val
    omega)

/-- A 62 × 4092 window of a 64 × 4096 array, offset by at most (2, 4), read at a pixel. -/
theorem slice_at {α : Type} (x : S64x4096.Idx → α) (o0 o1 : ℕ) (ho0 : o0 ≤ 2) (ho1 : o1 ≤ 4)
    (h : S64x4096.Slices ![o0, o1] S62x4092) (j : S62x4092.Idx) :
    extractStridedSlice S62x4092 ![o0, o1] x h j
      = x (ix2 (⟨(j 0).val + o0, by have h0 : (j 0).val < 62 := (j 0).isLt; omega⟩ : Fin 64)
            (⟨(j 1).val + o1, by have h1 : (j 1).val < 4092 := (j 1).isLt; omega⟩ : Fin 4096)) :=
  extractStridedSlice_apply _ x h j _ (fun a => match a with
    | ⟨0, _⟩ => by show (j 0).val + o0 = o0 + (j 0).val; omega
    | ⟨1, _⟩ => by show (j 1).val + o1 = o1 + (j 1).val; omega)

/-- A window of channel 0 at a pixel is the band's field, shifted by the window's offsets. -/
theorem slot0_slice (v25 v28 : Vec Ideal S1x1x64x4096 .f32) (o0 o1 : ℕ) (ho0 : o0 ≤ 2) (ho1 : o1 ≤ 4)
    (h : S64x4096.Slices ![o0, o1] S62x4092) (j : S62x4092.Idx) :
    extractStridedSlice S62x4092 ![o0, o1] (k0_pay2 (F := Ideal) v25) h j
      = slotField v25 v28 0 ((j 0).val + o0) ((j 1).val + o1) :=
  (slice_at _ o0 o1 ho0 ho1 h j).trans (pay2_at v25 v28 _)

/-- A window of channel 1 at a pixel is the band's field, shifted by the window's offsets. -/
theorem slot1_slice (v25 v28 : Vec Ideal S1x1x64x4096 .f32) (o0 o1 : ℕ) (ho0 : o0 ≤ 2) (ho1 : o1 ≤ 4)
    (h : S64x4096.Slices ![o0, o1] S62x4092) (j : S62x4092.Idx) :
    extractStridedSlice S62x4092 ![o0, o1] (k0_pay3 (F := Ideal) v28) h j
      = slotField v25 v28 1 ((j 0).val + o0) ((j 1).val + o1) :=
  (slice_at _ o0 o1 ho0 ho1 h j).trans (pay3_at v25 v28 _)

section Arithmetic
variable {F : FTy → Type} [FloatOps F]

/-- Half the difference of two 62 × 4092 arrays. -/
def halfDiff (p q : FVec F S62x4092 .f32) : FVec F S62x4092 .f32 :=
  mulf (subf p q) (broadcast S62x4092 (Scalar.ofBits .f32 0x3F000000#32))

/-- The band's squared negative part of the determinant, as an array over its 62 × 4092 pixels: from the two channel
    arrays and channel 0's two row-shifted windows. -/
def bandSq (v26 v29 : FVec F S64x4096 .f32) (v30 v31 : FVec F S62x4092 .f32) : FVec F S62x4092 .f32 :=
  let dy0 := halfDiff v30 v31
  let dy1 := halfDiff (extractStridedSlice S62x4092 ![0, 2] v29 slices_S64x4096_o0_2_S62x4092)
    (extractStridedSlice S62x4092 ![2, 2] v29 slices_S64x4096_o2_2_S62x4092)
  let dx0 := halfDiff (extractStridedSlice S62x4092 ![1, 1] v26 slices_S64x4096_o1_1_S62x4092)
    (extractStridedSlice S62x4092 ![1, 3] v26 slices_S64x4096_o1_3_S62x4092)
  let dx1 := halfDiff (extractStridedSlice S62x4092 ![1, 1] v29 slices_S64x4096_o1_1_S62x4092)
    (extractStridedSlice S62x4092 ![1, 3] v29 slices_S64x4096_o1_3_S62x4092)
  let one : FVec F S62x4092 .f32 := broadcast S62x4092 (Scalar.ofBits .f32 0x3F800000#32)
  let zero : FVec F S62x4092 .f32 := broadcast S62x4092 (Scalar.ofBits .f32 0x00000000#32)
  let det := subf (mulf (addf dy0 one) (addf dx1 one)) (mulf dx0 dy1)
  let n := maximumf (subf zero det) zero
  mulf n n

/-- The new running sum: the old one plus the sum over rows of the row sums of the band's squares. -/
theorem pay6_eq (v26 v29 : FVec F S64x4096 .f32) (v30 v31 : FVec F S62x4092 .f32) (v66 : Vec F S1x1 .f32) :
    k0_pay6 v26 v29 v30 v31 v66
      = shapeCast S1x1 (addf v66 (shapeCast S1x1
          (multiReduction .add [0] S1 (shapeCast S62x1
            (multiReduction .add [1] S62 (bandSq v26 v29 v30 v31) 0x00000000#32 reduces_S62x4092_S62 (.inl rfl) rfl)
            shapeCasts_S62_S62x1) 0x00000000#32 reduces_S62x1_S1 (.inl rfl) rfl)
          shapeCasts_S1_S1x1)) shapeCasts_S1x1_S1x1 := rfl

end Arithmetic

/-- At a pixel the band's square is the pixel's penalty, with the band as the field. -/
theorem bandSq_at (v25 v28 : Vec Ideal S1x1x64x4096 .f32) (j : S62x4092.Idx) :
    bandSq (F := Ideal) (k0_pay2 v25) (k0_pay3 v28) (k0_pay4 v25) (k0_pay5 v25) j
      = pen (slotField v25 v28) (j 0).val (j 1).val := by
  unfold bandSq halfDiff k0_pay4 k0_pay5 pen
  simp only [mulf_apply, subf_apply, addf_apply, maximumf_apply, broadcast_apply]
  rw [slot0_slice v25 v28 0 2 (by omega) (by omega), slot0_slice v25 v28 2 2 (by omega) (by omega),
    slot1_slice v25 v28 0 2 (by omega) (by omega), slot1_slice v25 v28 2 2 (by omega) (by omega),
    slot0_slice v25 v28 1 1 (by omega) (by omega), slot0_slice v25 v28 1 3 (by omega) (by omega),
    slot1_slice v25 v28 1 1 (by omega) (by omega), slot1_slice v25 v28 1 3 (by omega) (by omega)]
  simp only [show ∀ b : BitVec 32, Scalar.ofBits (F := Ideal) .f32 b = Ideal.ofBits .f32 b from fun _ => rfl,
    Ideal.ofBits_zero_f32, zero_sub, Nat.add_zero]

/-- The sum along a row of a 62 × 4092 array. -/
theorem rowSum_at (x : FVec Ideal S62x4092 .f32) (hφ : FKind.Formats .f32)
    (hacc : (0x00000000#32 : BitVec 32) = FKind.add.neutral .f32 hφ) (k : Fin 62) :
    multiReduction .add [1] S62 x 0x00000000#32 reduces_S62x4092_S62 hφ hacc (ix1 k)
      = ∑ l : Fin 4092, x (ix2 k l) := by
  refine (Ideal.multiReduction_add_single x _ reduces_S62x4092_S62 hφ hacc (ix1 k)).trans ?_
  exact Finset.sum_congr rfl fun l _ => congrArg x (funext fun a => match a with
    | ⟨0, _⟩ => rfl
    | ⟨1, _⟩ => rfl)

/-- The sum down the one column of a 62 × 1 array. -/
theorem colSum_at (x : FVec Ideal S62x1 .f32) (hφ : FKind.Formats .f32)
    (hacc : (0x00000000#32 : BitVec 32) = FKind.add.neutral .f32 hφ) (j : S1.Idx) :
    multiReduction .add [0] S1 x 0x00000000#32 reduces_S62x1_S1 hφ hacc j
      = ∑ k : Fin 62, x (ix2 k (0 : Fin 1)) := by
  refine (Ideal.multiReduction_add_single x _ reduces_S62x1_S1 hφ hacc j).trans ?_
  exact Finset.sum_congr rfl fun k _ => congrArg x (funext fun a => match a with
    | ⟨0, _⟩ => rfl
    | ⟨1, _⟩ => Fin.ext (by have h : (j 0).val < 1 := (j 0).isLt; show (j 0).val = 0; omega))

/-- The band's step: the running sum grows by the band's total penalty. -/
theorem pay6_at (v25 v28 : Vec Ideal S1x1x64x4096 .f32) (a : Vec Ideal S1x1 .f32) :
    k0_pay6 (F := Ideal) (k0_pay2 v25) (k0_pay3 v28) (k0_pay4 v25) (k0_pay5 v25) a
      = fun _ => a (ix2 0 0) + ∑ ii : Fin 62, ∑ jj : Fin 4092, pen (slotField v25 v28) ii.val jj.val := by
  funext j
  have hj : j = ix2 (0 : Fin 1) (0 : Fin 1) := funext fun b => match b with
    | ⟨0, _⟩ => Fin.ext (by have h : (j 0).val < 1 := (j 0).isLt; show (j 0).val = 0; omega)
    | ⟨1, _⟩ => Fin.ext (by have h : (j 1).val < 1 := (j 1).isLt; show (j 1).val = 0; omega)
  subst hj
  rw [pay6_eq, shapeCast_self (s := S1x1) _ shapeCasts_S1x1_S1x1, addf_apply]
  refine congrArg (a (ix2 0 0) + ·) ?_
  refine (shapeCast_apply _ shapeCasts_S1_S1x1 (ix2 (0 : Fin 1) (0 : Fin 1)) (ix1 (0 : Fin 1)) (by
    rw [Shape.rowMajor_val_one, Shape.rowMajor_val_two]; rfl)).trans ?_
  refine (colSum_at _ _ _ _).trans ?_
  refine Finset.sum_congr rfl fun k _ => ?_
  refine (shapeCast_apply _ shapeCasts_S62_S62x1 (ix2 k (0 : Fin 1)) (ix1 k) (by
    rw [Shape.rowMajor_val_one, Shape.rowMajor_val_two]; show k.val = k.val * 1 + 0; omega)).trans ?_
  refine (rowSum_at _ _ _ k).trans ?_
  exact Finset.sum_congr rfl fun l _ => bandSq_at v25 v28 (ix2 k l)

end Cert.KernelIdeal.BandValue

end
-- ==== Proof.BandInit.lean ====
/-
  The running sum starts at zero.

  Before the first band the running sum is set to the zero word broadcast over its one entry, re-read at the same
  shape: the extended real `0`.
-/
import proofs.«111218_j23441931502078_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BandValue

open Cert.KernelIdeal Cert.KernelIdeal.Gen
open Idealize.ShloMosaic Idealize.ShloMosaic.ValueIdx

/-- The running sum's initial value is zero. -/
theorem pay1_at : k0_pay1 (F := Ideal) = fun _ => (0 : EReal) := by
  unfold k0_pay1
  show shapeCast S1x1 (broadcast S1x1 (Scalar.ofBits (F := Ideal) .f32 0x00000000#32)) shapeCasts_S1x1_S1x1 = _
  rw [shapeCast_self (s := S1x1) _ shapeCasts_S1x1_S1x1]
  funext j
  show Ideal.ofBits .f32 0x00000000#32 = 0
  exact Ideal.ofBits_zero_f32

end Cert.KernelIdeal.BandValue

end
-- ==== Proof.ArgField.lean ====
/-
  The channel-row-column array the band reads is the argument.

  Before the bands run, the argument array of shape [1, 2, 4096, 4096] is re-read as an array of shape
  [2, 4096, 4096]: the same entries in the same row-major order. The batch axis has one entry, so entry
  (ch, r, col) of the re-read array is entry (0, ch, r, col) of the argument.
-/
import proofs.«111218_j23441931502078_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.ArgValue

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-- The array the bands read, as the re-reading of the argument. -/
theorem V_main_v0 (m : (ℓ : Loc nD τ sig) → Buf (Elt F) ℓ) (c : Dev nD) :
    (V m c main_v0 : (⟨S2x4096x4096, .f32⟩ : BufTy).Contents (Elt F))
      = shapeCast S2x4096x4096 (m ((c.tc : Thread nD τ).loc main_arg0)) shapeCasts_S1x2x4096x4096_S2x4096x4096 := by
  show StableHlo.after hostOps0 (fun b => m (c, b)) (Proc.devRef .tc main_v0) = _
  after_results
  rfl

/-- Entry (ch, r, col) of the array the bands read is entry (0, ch, r, col) of the argument. -/
theorem field_at (m : (ℓ : Loc nD τ sig) → Buf (Elt F) ℓ) (c : Dev nD) (ch : Fin 2) (r col : Fin 4096) :
    V m c main_v0 (ix3 ch r col) = m ((c.tc : Thread nD τ).loc main_arg0) (ix4 (0 : Fin 1) ch r col) := by
  have hch := ch.isLt
  have hr := r.isLt
  have hc := col.isLt
  refine (congrFun (V_main_v0 m c) (ix3 ch r col)).trans ?_
  exact shapeCast_apply _ shapeCasts_S1x2x4096x4096_S2x4096x4096 (ix3 ch r col) (ix4 (0 : Fin 1) ch r col)
    (by rw [Shape.rowMajor_val_four, Shape.rowMajor_val_three]
        show ((0 * 2 + ch.val) * 4096 + r.val) * 4096 + col.val = (ch.val * 4096 + r.val) * 4096 + col.val
        omega)

end Cert.KernelIdeal.ArgValue

end
-- ==== Proof.FieldOf.lean ====
/-
  The displacement field as a function of plain coordinates.

  The argument array has shape [1, 2, 4096, 4096]: one batch entry, two channels, rows, columns. `fieldOf a ch r c`
  is its entry at (0, ch, r, c) for `r, c < 4096`; outside the array it is `0` (no interior pixel ever reads there).
-/
import Idealize.ShloMosaic.Lib.ValueIdx

noncomputable section

namespace Cert.JacPenalty

open Idealize.ShloMosaic Idealize.ShloMosaic.ValueIdx

/-- The argument array read by channel, row and column. -/
def fieldOf (a : (⟨4, ![1, 2, 4096, 4096]⟩ : Shape).Idx → EReal) : Fin 2 → ℕ → ℕ → EReal :=
  fun ch r c => if h : r < 4096 ∧ c < 4096 then a (ix4 (0 : Fin 1) ch ⟨r, h.1⟩ ⟨c, h.2⟩) else 0

/-- Inside the array the field is the array's entry. -/
theorem fieldOf_eq (a : (⟨4, ![1, 2, 4096, 4096]⟩ : Shape).Idx → EReal) (ch : Fin 2) (r c : ℕ)
    (hr : r < 4096) (hc : c < 4096) :
    fieldOf a ch r c = a (ix4 (0 : Fin 1) ch ⟨r, hr⟩ ⟨c, hc⟩) := by
  unfold fieldOf
  rw [dif_pos ⟨hr, hc⟩]

end Cert.JacPenalty

end
-- ==== Proof.PenCongr.lean ====
/-
  A pixel's penalty depends on nine field entries only.

  `pen y i j` reads `y` at rows `i … i + 2` and columns `j + 1 … j + 3`: two fields that agree on that 3 × 3
  neighbourhood, in both channels, have the same penalty at `(i, j)`.
-/
import proofs.«111218_j23441931502078_1_alg».proof.Proof.JacPenalty

noncomputable section

namespace Cert.JacPenalty

/-- Fields that agree on the pixel's 3 × 3 neighbourhood have the same penalty there. -/
theorem pen_congr (y y' : Fin 2 → ℕ → ℕ → EReal) (i j : ℕ)
    (h : ∀ ch r c, i ≤ r → r ≤ i + 2 → j + 1 ≤ c → c ≤ j + 3 → y ch r c = y' ch r c) :
    pen y i j = pen y' i j := by
  unfold pen
  rw [h 0 i (j + 2) (by omega) (by omega) (by omega) (by omega),
    h 0 (i + 2) (j + 2) (by omega) (by omega) (by omega) (by omega),
    h 1 i (j + 2) (by omega) (by omega) (by omega) (by omega),
    h 1 (i + 2) (j + 2) (by omega) (by omega) (by omega) (by omega),
    h 0 (i + 1) (j + 1) (by omega) (by omega) (by omega) (by omega),
    h 0 (i + 1) (j + 3) (by omega) (by omega) (by omega) (by omega),
    h 1 (i + 1) (j + 1) (by omega) (by omega) (by omega) (by omega),
    h 1 (i + 1) (j + 3) (by omega) (by omega) (by omega) (by omega)]

end Cert.JacPenalty

end
-- ==== Proof.BandSum.lean ====
/-
  The bands tile the interior.

  The interior has 4092 = 66 · 62 pixel rows. Pixel row `r = 62 t + ii` (band `t`, local row `ii`) is read by band `t`
  from field row `62 t + 1` at local row `ii`, and by the whole-image formula from field row `1` at row `62 t + ii`:
  the same field entries, so the same penalty. Summing the bands in order therefore sums every interior pixel row
  exactly once; only commutativity and associativity of `+` on the extended reals are used.
-/
import proofs.«111218_j23441931502078_1_alg».proof.Proof.JacPenalty
import Mathlib.Algebra.BigOperators.Fin
import Mathlib.Algebra.BigOperators.Intervals

noncomputable section

namespace Cert.JacPenalty

open Finset

/-- The penalty summed along pixel row `r` of the whole image. -/
def rowSum (x : Fin 2 → ℕ → ℕ → EReal) (r : ℕ) : EReal :=
  ∑ c : Fin 4092, pen (win x 1) r c.val

/-- A pixel of band `t` at local row `ii` is the image's pixel at row `62 t + ii`: both read field rows
    `62 t + 1 + ii`, `+ 1`, `+ 2`. -/
theorem pen_band (x : Fin 2 → ℕ → ℕ → EReal) (t ii j : ℕ) :
    pen (win x (62 * t + 1)) ii j = pen (win x 1) (62 * t + ii) j := by
  have e0 : 62 * t + 1 + ii = 1 + (62 * t + ii) := by omega
  have e1 : 62 * t + 1 + (ii + 1) = 1 + (62 * t + ii + 1) := by omega
  have e2 : 62 * t + 1 + (ii + 2) = 1 + (62 * t + ii + 2) := by omega
  unfold pen win
  simp only [e0, e1, e2]

/-- Band `t` is the sum of the image's pixel rows `62 t … 62 t + 61`. -/
theorem tile_eq_rows (x : Fin 2 → ℕ → ℕ → EReal) (t : ℕ) :
    tile x t = ∑ ii ∈ range 62, rowSum x (62 * t + ii) := by
  unfold tile rowSum
  rw [← Fin.sum_univ_eq_sum_range (fun ii => ∑ c : Fin 4092, pen (win x 1) (62 * t + ii) c.val) 62]
  exact Finset.sum_congr rfl fun ii _ => Finset.sum_congr rfl fun jj _ => pen_band x t ii.val jj.val

/-- The whole image is the sum of its 4092 pixel rows. -/
theorem total_eq_rows (x : Fin 2 → ℕ → ℕ → EReal) :
    total x = ∑ r ∈ range 4092, rowSum x r := by
  unfold total
  exact Fin.sum_univ_eq_sum_range (rowSum x) 4092

/-- The first `n` bands are the first `62 n` pixel rows. -/
theorem sum_tiles_rows (x : Fin 2 → ℕ → ℕ → EReal) (n : ℕ) :
    ∑ t ∈ range n, tile x t = ∑ r ∈ range (62 * n), rowSum x r := by
  induction n with
  | zero => simp
  | succ n ih =>
    rw [Finset.sum_range_succ, ih, tile_eq_rows, Nat.mul_succ, Finset.sum_range_add]

/-- The 66 bands sum to the whole interior. -/
theorem sum_tiles (x : Fin 2 → ℕ → ℕ → EReal) :
    ∑ t ∈ Finset.range 66, tile x t = total x := by
  rw [sum_tiles_rows, total_eq_rows]

/-- The running sum before band `n` is the sum of bands `0 … n - 1`. -/
theorem accAt_eq_sum (x : Fin 2 → ℕ → ℕ → EReal) (n : ℕ) :
    accAt x n = ∑ t ∈ Finset.range n, tile x t := by
  induction n with
  | zero => simp [accAt]
  | succ n ih => rw [accAt, ih, Finset.sum_range_succ]

/-- After all 66 bands the running sum is the total. -/
theorem accAt_all (x : Fin 2 → ℕ → ℕ → EReal) : accAt x 66 = total x := by
  rw [accAt_eq_sum, sum_tiles]

end Cert.JacPenalty

end
-- ==== Proof.KernelIdealValue.lean ====
/-
  The streaming kernel's value at the ideal instance. A load of one channel of a slot, through the whole staging
  scratch, of what a band's transfer left there reads the field at the band's rows: slot row `r` of band `t` is field
  row `62 t + 1 + r`. So the band's penalty sum is the specification's `tile`, the accumulator after point `n` is the
  running sum `accAt (n + 1)`, the one word the last point stores is the total, and the host's division makes it the mean.
-/
import proofs.«111218_j23441931502078_1_alg».proof.Proof.KernelIdealFrame
import proofs.«111218_j23441931502078_1_alg».proof.Proof.BandValue
import proofs.«111218_j23441931502078_1_alg».proof.Proof.BandInit
import proofs.«111218_j23441931502078_1_alg».proof.Proof.ArgField
import proofs.«111218_j23441931502078_1_alg».proof.Proof.FieldOf
import proofs.«111218_j23441931502078_1_alg».proof.Proof.PenCongr
import proofs.«111218_j23441931502078_1_alg».proof.Proof.BandSum
import Idealize.ShloMosaic.Lib.Pipeline.Value
import Idealize.ShloMosaic.Lib.ValueIdx
import Idealize.ShloMosaic.Lib.StableHlo.Run

set_option maxRecDepth 16384

noncomputable section

namespace Cert.KernelIdeal.StreamValue

open Cert.KernelIdeal Cert.KernelIdeal.Gen Cert.KernelIdeal.Stream Cert.KernelIdeal.BandValue Cert.KernelIdeal.ArgValue Cert.JacPenalty
open Idealize.ShloMosaic Idealize.ShloMosaic.TcCoe Idealize.ShloMosaic.ValueIdx Idealize.SL.Sem
open Idealize.ShloMosaic.Pipeline (Dat)

/-! ## Reading a slot, reading a band -/

theorem hz2 : (![0, 0] : Fin 2 → Nat) = fun _ => 0 := funext fun a => by fin_cases a <;> rfl

/-- Slot `s` places its index (channel, row, column) at (s, channel, row, column) of the staging scratch. -/
theorem slot_emb (s : Fin 2) (ch : Fin 2) (r : Fin 64) (col : Fin 4096) (a : Fin 4) :
    ((rslot s).view.emb (ix3 ch r col) a).val = (![s.val, ch.val, r.val, col.val] : Fin 4 → Nat) a := by
  unfold rslot ringM
  show (![s.val, 0, 0, 0] : Fin 4 → Nat) a + 1 * ((Shape.reshapeEquiv (Shape.Squeezes.numel_eq squeezes_S1x2x64x4096_S2x64x4096) (ix3 ch r col)) a).val = _
  rw [Shape.reshapeEquiv_cons_one (n := 3) (d := ![2, 64, 4096])]
  refine Fin.cases ?_ (fun i => ?_) a
  · show s.val + 1 * 0 = s.val; omega
  · fin_cases i
    · show 0 + 1 * ch.val = ch.val; omega
    · show 0 + 1 * r.val = r.val; omega
    · show 0 + 1 * col.val = col.val; omega

variable {F : FTy → Type} [FloatOps F]

/-- A load of channel `ch` of slot `s` through the whole scratch, of contents a transfer left listed on the slot's
    view, is the landed payload at (channel, row, column). -/
theorem slot_read (s : Fin 2) (ch : Fin 2) (x : S2x64x4096.Idx → Elt F .f32) (off : Fin 4 → Nat) (inb) (hoff : off = ![s.val, ch.val, 0, 0]) (y : S1x1x64x4096.Idx)
    (r : Fin 64) (col : Fin 4096) (hr : r.val = (y 2).val) (hc : col.val = (y 3).val) :
    (View.whole cc0_scratch0).readAt (Elt F) (Rect.unit (s := S2x2x64x4096) off S1x1x64x4096.size inb).toLoadRect
        ((rslot s).view.writes (Elt F) (rslot s).view.junk [⟨Rect.whole S2x64x4096, x⟩]) y
      = x (ix3 ch r col) := by
  subst hoff
  simp only [View.readAt, View.read_whole]
  have e : (Rect.unit (s := S2x2x64x4096) ![s.val, ch.val, 0, 0] S1x1x64x4096.size inb).toLoadRect.idx y
      = (rslot s).view.emb (ix3 ch r col) := by
    funext a
    apply Fin.ext
    rw [show ((rslot s).view.emb (ix3 ch r col) a).val = _ from slot_emb s ch r col a]
    have h0 : (y 0).val < 1 := (y 0).isLt
    have h1 : (y 1).val < 1 := (y 1).isLt
    fin_cases a
    · show s.val + 1 * (y 0).val = s.val; omega
    · show ch.val + 1 * (y 1).val = ch.val; omega
    · show 0 + 1 * (y 2).val = r.val; omega
    · show 0 + 1 * (y 3).val = col.val; omega
  rw [e]
  exact congrFun (View.read_writes_whole (rslot s).view ((rslot s).view.junk (Val := Elt F)) x) _

/-- Band `b` places (channel, row, column) at (channel, `62 b + 1 +` row, column) of the field. -/
theorem band_read (c : Dev nD) (b : Fin 66) (W : BufOf (F := F) c fieldM) (ch : Fin 2) (r : Fin 64) (col : Fin 4096) :
    ReadAs.same.apply ((band b).view.read (Elt F) W) (ix3 ch r col) = W (ix3 ch ⟨62 * b.val + 1 + r.val, by have := b.isLt; have := r.isLt; omega⟩ col) := by
  show W ((band b).view.emb (ix3 ch r col)) = _
  refine congrArg W (funext fun a => Fin.ext ?_)
  unfold band fieldM
  show (![0, 62 * b.val + 1, 0] : Fin 3 → Nat) a + 1 * ((ix3 ch r col) a).val = _
  fin_cases a
  · show 0 + 1 * ch.val = ch.val; omega
  · show 62 * b.val + 1 + 1 * r.val = 62 * b.val + 1 + r.val; omega
  · show 0 + 1 * col.val = col.val; omega

/-- So what point `t` loads of channel `ch` is the field at rows `62 t + 1 …`. -/
theorem load_at (c : Dev nD) (t : Fin cfg0.N) (W : BufOf (F := F) c fieldM) (ch : Fin 2) (off : Fin 4 → Nat) (inb) (hoff : off = ![(Ring.sl 2 t.val).val, ch.val, 0, 0])
    (y : S1x1x64x4096.Idx) (r : Fin 64) (col : Fin 4096) (hr : r.val = (y 2).val) (hc : col.val = (y 3).val) :
    (View.whole cc0_scratch0).readAt (Elt F) (Rect.unit (s := S2x2x64x4096) off S1x1x64x4096.size inb).toLoadRect
        ((rslot (Ring.sl 2 t.val)).view.writes (Elt F) (rslot (Ring.sl 2 t.val)).view.junk
          [⟨Rect.whole S2x64x4096, ReadAs.same.apply ((band (Ring.bk 66 t.val)).view.read (Elt F) W)⟩]) y
      = W (ix3 ch ⟨62 * t.val + 1 + r.val, by have := lt_of_lt_of_eq t.isLt N_66; have := r.isLt; omega⟩ col) := by
  rw [slot_read _ ch _ off inb hoff y r col hr hc, band_read]
  refine congrArg W (congrArg (fun k : Fin 4096 => ix3 ch k col) (Fin.ext ?_))
  show 62 * (Ring.bk 66 t.val).val + 1 + r.val = 62 * t.val + 1 + r.val
  rw [Ring.bk_val (lt_of_lt_of_eq t.isLt N_66)]

/-! ## A band's penalty sum is the specification's -/

section Values
variable (m : (ℓ : Loc nD τ sig) → Buf (Elt Ideal) ℓ)

/-- The field as the specification reads it off the argument. -/
abbrev fld (c : Dev nD) : Fin 2 → ℕ → ℕ → EReal := fieldOf (m ((c.tc : Thread nD τ).loc main_arg0))

/-- Two loaded channels that are the field's rows from `62 t + 1` on are that band of the field. -/
theorem slotField_eq (c : Dev nD) (t : Fin cfg0.N) (v25 v28 : S1x1x64x4096.Idx → EReal)
    (h25 : ∀ (y : S1x1x64x4096.Idx) (r : Fin 64) (col : Fin 4096), r.val = (y 2).val → col.val = (y 3).val →
      v25 y = V m c main_v0 (ix3 (0 : Fin 2) ⟨62 * t.val + 1 + r.val, by have := lt_of_lt_of_eq t.isLt N_66; have := r.isLt; omega⟩ col))
    (h28 : ∀ (y : S1x1x64x4096.Idx) (r : Fin 64) (col : Fin 4096), r.val = (y 2).val → col.val = (y 3).val →
      v28 y = V m c main_v0 (ix3 (1 : Fin 2) ⟨62 * t.val + 1 + r.val, by have := lt_of_lt_of_eq t.isLt N_66; have := r.isLt; omega⟩ col))
    (ch : Fin 2) (r col : ℕ) (hr : r < 64) (hc : col < 4096) :
    slotField v25 v28 ch r col = win (fld m c) (62 * t.val + 1) ch r col := by
  have hN := lt_of_lt_of_eq t.isLt N_66
  unfold slotField; rw [dif_pos ⟨hr, hc⟩]
  show _ = fieldOf _ ch (62 * t.val + 1 + r) col
  have e := field_at m c ch ⟨62 * t.val + 1 + r, by omega⟩ ⟨col, hc⟩
  rw [fieldOf_eq _ ch _ _ (by omega) hc, ← e]
  by_cases h : ch = 0
  · subst h; rw [if_pos rfl]; exact h25 _ ⟨r, hr⟩ ⟨col, hc⟩ rfl rfl
  · have h1 : ch = 1 := Fin.ext (by have := ch.isLt; have : ch.val ≠ 0 := fun e => h (Fin.ext e); show ch.val = 1; omega)
    subst h1; rw [if_neg (by decide)]; exact h28 _ ⟨r, hr⟩ ⟨col, hc⟩ rfl rfl

theorem band_tile (c : Dev nD) (t : Fin cfg0.N) (v25 v28 : S1x1x64x4096.Idx → EReal)
    (h25 : ∀ (y : S1x1x64x4096.Idx) (r : Fin 64) (col : Fin 4096), r.val = (y 2).val → col.val = (y 3).val →
      v25 y = V m c main_v0 (ix3 (0 : Fin 2) ⟨62 * t.val + 1 + r.val, by have := lt_of_lt_of_eq t.isLt N_66; have := r.isLt; omega⟩ col))
    (h28 : ∀ (y : S1x1x64x4096.Idx) (r : Fin 64) (col : Fin 4096), r.val = (y 2).val → col.val = (y 3).val →
      v28 y = V m c main_v0 (ix3 (1 : Fin 2) ⟨62 * t.val + 1 + r.val, by have := lt_of_lt_of_eq t.isLt N_66; have := r.isLt; omega⟩ col)) :
    (∑ ii : Fin 62, ∑ jj : Fin 4092, pen (slotField v25 v28) ii.val jj.val) = tile (fld m c) t.val := by
  unfold tile
  refine Finset.sum_congr rfl fun ii _ => Finset.sum_congr rfl fun jj _ => ?_
  refine pen_congr _ _ _ _ fun ch r col _ hr2 _ hc2 => ?_
  exact slotField_eq m c t v25 v28 h25 h28 ch r col (by have := ii.isLt; omega) (by have := jj.isLt; omega)

end Values

/-! ## The accumulator after each point -/

section Accumulator
variable (m : (ℓ : Loc nD τ sig) → Buf (Elt Ideal) ℓ)

theorem ld_word (a : Vec Ideal S1x1 .f32) :
    View.readAt (Elt Ideal) (View.whole cc0_scratch2) (Rect.unit (s := S1x1) ![0, 0] S1x1.size inb_S1x1_S1x1_0_0).toLoadRect
      ((Memref.isWhole_whole cc0_scratch2).unread a) (ix2 0 0) = a (ix2 0 0) := by
  rw [View.readAt_eq_ld, (Memref.isWhole_whole cc0_scratch2).read_unread]
  exact congrFun (View.ld_unit_zero (S := S1x1) hz2 _ a) _

/-- The loads of a middle point, of the first point and of the last point read the field at the band's rows. -/
theorem mid_ch0 (c : Dev nD) (t : Fin cfg0.N) (y : S1x1x64x4096.Idx) (r : Fin 64) (col : Fin 4096) (hr : r.val = (y 2).val) (hc : col.val = (y 3).val) :
    runMid.sl.v25 c t (V m c main_v0) y = V m c main_v0 (ix3 (0 : Fin 2) ⟨62 * t.val + 1 + r.val, by have := lt_of_lt_of_eq t.isLt N_66; have := r.isLt; omega⟩ col) :=
  load_at c t (V m c main_v0) 0 _ _ (off_load0 t) y r col hr hc
theorem mid_ch1 (c : Dev nD) (t : Fin cfg0.N) (y : S1x1x64x4096.Idx) (r : Fin 64) (col : Fin 4096) (hr : r.val = (y 2).val) (hc : col.val = (y 3).val) :
    runMid.sl.v28 c t (V m c main_v0) y = V m c main_v0 (ix3 (1 : Fin 2) ⟨62 * t.val + 1 + r.val, by have := lt_of_lt_of_eq t.isLt N_66; have := r.isLt; omega⟩ col) :=
  load_at c t (V m c main_v0) 1 _ _ (off_load1 t) y r col hr hc
theorem first_ch0 (c : Dev nD) (t : Fin cfg0.N) (y : S1x1x64x4096.Idx) (r : Fin 64) (col : Fin 4096) (hr : r.val = (y 2).val) (hc : col.val = (y 3).val) :
    runFirst.sl.v25 c t (V m c main_v0) y = V m c main_v0 (ix3 (0 : Fin 2) ⟨62 * t.val + 1 + r.val, by have := lt_of_lt_of_eq t.isLt N_66; have := r.isLt; omega⟩ col) :=
  load_at c t (V m c main_v0) 0 _ _ (off_load0 t) y r col hr hc
theorem first_ch1 (c : Dev nD) (t : Fin cfg0.N) (y : S1x1x64x4096.Idx) (r : Fin 64) (col : Fin 4096) (hr : r.val = (y 2).val) (hc : col.val = (y 3).val) :
    runFirst.sl.v28 c t (V m c main_v0) y = V m c main_v0 (ix3 (1 : Fin 2) ⟨62 * t.val + 1 + r.val, by have := lt_of_lt_of_eq t.isLt N_66; have := r.isLt; omega⟩ col) :=
  load_at c t (V m c main_v0) 1 _ _ (off_load1 t) y r col hr hc
theorem last_ch0 (c : Dev nD) (t : Fin cfg0.N) (y : S1x1x64x4096.Idx) (r : Fin 64) (col : Fin 4096) (hr : r.val = (y 2).val) (hc : col.val = (y 3).val) :
    runLast.sl.v25 c t (V m c main_v0) y = V m c main_v0 (ix3 (0 : Fin 2) ⟨62 * t.val + 1 + r.val, by have := lt_of_lt_of_eq t.isLt N_66; have := r.isLt; omega⟩ col) :=
  load_at c t (V m c main_v0) 0 _ _ (off_load0 t) y r col hr hc
theorem last_ch1 (c : Dev nD) (t : Fin cfg0.N) (y : S1x1x64x4096.Idx) (r : Fin 64) (col : Fin 4096) (hr : r.val = (y 2).val) (hc : col.val = (y 3).val) :
    runLast.sl.v28 c t (V m c main_v0) y = V m c main_v0 (ix3 (1 : Fin 2) ⟨62 * t.val + 1 + r.val, by have := lt_of_lt_of_eq t.isLt N_66; have := r.isLt; omega⟩ col) :=
  load_at c t (V m c main_v0) 1 _ _ (off_load1 t) y r col hr hc

set_option maxHeartbeats 400000 in
/-- What a middle point leaves in the accumulator: what it found plus band `t`'s sum. -/
theorem mid_value (c : Dev nD) (t : Fin cfg0.N) (arg2 : Memref sig .tc .vmem S1x1 .f32) (harg2 : arg2.IsWhole)
    (hc0 : ¬isFirst (grid0.coords t)) (hc1 : hasNext (grid0.coords t)) (hc2 : ¬isLast (grid0.coords t)) (a : Vec Ideal S1x1 .f32) :
    accMid (F := Ideal) c t arg2 harg2 hc0 hc1 hc2 a (V m c main_v0) = fun _ => a (ix2 0 0) + tile (fld m c) t.val := by
  unfold accMid
  unfold runMid
  dsimp only
  rw [View.canon_unit_zero hz2]
  refine (pay6_at (runMid.sl.v25 c t (V m c main_v0)) (runMid.sl.v28 c t (V m c main_v0)) _).trans ?_
  have hb := band_tile m c t (runMid.sl.v25 c t (V m c main_v0)) (runMid.sl.v28 c t (V m c main_v0)) (mid_ch0 m c t) (mid_ch1 m c t)
  funext _
  exact congrArg₂ (· + ·) (ld_word a) hb

set_option maxHeartbeats 400000 in
/-- The first point clears the accumulator and adds band 0's sum. -/
theorem first_value (c : Dev nD) (t : Fin cfg0.N) (arg2 : Memref sig .tc .vmem S1x1 .f32) (harg2 : arg2.IsWhole)
    (hc0 : isFirst (grid0.coords t)) (hc1 : hasNext (grid0.coords t)) (hc2 : ¬isLast (grid0.coords t)) :
    accFirst (F := Ideal) c t arg2 harg2 hc0 hc1 hc2 (V m c main_v0) = fun _ => accAt (fld m c) 0 + tile (fld m c) t.val := by
  unfold accFirst
  unfold runFirst
  dsimp only
  rw [View.canon_cons_unit_zero hz2]
  refine (pay6_at (runFirst.sl.v25 c t (V m c main_v0)) (runFirst.sl.v28 c t (V m c main_v0)) _).trans ?_
  have ha : runFirst.sl.v66 (F := Ideal) c (ix2 0 0) = accAt (fld m c) 0 := by
    unfold runFirst.sl.v66 runFirst.sl.Ha_1
    rw [View.readCov_unit_zero accM.view hz2, pay1_at]
    rfl
  have hb := band_tile m c t (runFirst.sl.v25 c t (V m c main_v0)) (runFirst.sl.v28 c t (V m c main_v0)) (first_ch0 m c t) (first_ch1 m c t)
  funext _
  exact congrArg₂ (· + ·) ha hb

set_option maxHeartbeats 400000 in
/-- The last point adds band 65's sum, -/
theorem last_value (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec Ideal S1x1 .f32) :
    accLast (F := Ideal) c t arg2 harg2 hc0 hc1 hc2 a (V m c main_v0) = fun _ => a (ix2 0 0) + tile (fld m c) t.val := by
  unfold accLast
  unfold runLast
  dsimp only
  unfold runLast.sl.Ha_1
  dsimp only
  rw [View.canon_unit_zero hz2]
  refine (pay6_at (runLast.sl.v25 c t (V m c main_v0)) (runLast.sl.v28 c t (V m c main_v0)) _).trans ?_
  have hb := band_tile m c t (runLast.sl.v25 c t (V m c main_v0)) (runLast.sl.v28 c t (V m c main_v0)) (last_ch0 m c t) (last_ch1 m c t)
  funext _
  exact congrArg₂ (· + ·) (ld_word a) hb

set_option maxHeartbeats 400000 in
/-- and stores the accumulator it just wrote into the output's staging buffer. -/
theorem out_value (c : Dev nD) (t : Fin cfg0.N) (arg2 : Memref sig .tc .vmem S1x1 .f32) (harg2 : arg2.IsWhole)
    (hc0 : ¬isFirst (grid0.coords t)) (hc1 : ¬hasNext (grid0.coords t)) (hc2 : isLast (grid0.coords t)) (a : Vec Ideal S1x1 .f32) :
    outLast (F := Ideal) c t arg2 harg2 hc0 hc1 hc2 a (V m c main_v0) = accLast (F := Ideal) c t arg2 harg2 hc0 hc1 hc2 a (V m c main_v0) := by
  unfold outLast accLast
  unfold runLast
  dsimp only
  rw [View.canon_unit_zero hz2]
  unfold runLast.sl.v74 runLast.sl.Ha_1
  rw [View.readCov_unit_zero accM.view hz2, View.canon_unit_zero hz2]

/-- The accumulator after point `n` is the running sum of the bands up to `n`. -/
theorem accV_eq (c : Dev nD) : ∀ n : ℕ, n ≤ 65 → accV (F := Ideal) m c n = fun _ => accAt (fld m c) (n + 1)
  | 0, _ => by
    show accFirst (F := Ideal) c (pt 0 (by decide)) _ _ _ _ _ (V m c main_v0) = _
    rw [first_value]; rfl
  | n + 1, hn => by
    have ih := accV_eq c n (by omega)
    show (if h : n + 1 < 65 then _ else _) = _
    by_cases h : n + 1 < 65
    · rw [dif_pos h, mid_value, ih]; rfl
    · have h' : n + 1 = 65 := by omega
      rw [dif_neg h, dif_pos h', last_value, ih]; rfl

/-- The word the last point stores for the output is the total penalty. -/
theorem outAt_last (c : Dev nD) (t : Fin cfg0.N) (h : isLast (grid0.coords t)) : outAt (F := Ideal) m c t = fun _ => total (fld m c) := by
  have h65 : t.val = 65 := (isLast_iff t).mp h
  unfold outAt
  rw [dif_pos h, out_value, last_value, accV_eq m c (t.val - 1) (by omega), h65]
  funext _
  show accAt (fld m c) 65 + tile (fld m c) 65 = _
  exact accAt_all (fld m c)
end Accumulator

/-! ## The output array, and the program's result -/

section Final
variable (m : (ℓ : Loc nD τ sig) → Buf (Elt Ideal) ℓ) (ρ : Dev nD → PrngReg)

/-- The one block written back, at the last point, is the total: the output array is one word. -/
theorem flushed_eq (c : Dev nD) (t : Fin cfg0.N) (hf : (cfg0.win 0).flush t = true) :
    (dats m 0 c).flushed 0 t = ((cfg0.win 0).blk t).view.read (Elt Ideal) (fun _ => total (fld m c)) := by
  show (cfg0.win 0).cut (grid0.coords t) ((dats m 0 c).after 0 t) = _
  rw [after_0, outAt_last m c t ((isLast_iff t).mpr (by have := (flush0_0 t).mp hf; have := lt_of_lt_of_eq t.isLt N_66; omega))]
  rfl

theorem mem_last (i : S1x1.Idx) (t : Fin cfg0.N) (ht : t.val = 65) : i ∈ ((cfg0.win 0).blk t).view.set := by
  show i ∈ ((View.whole main_v1).slice (win0_0.rect t)).set
  rw [View.set_slice_whole, Rect.mem_set_unit]
  have e : ∀ t : Fin grid0.N, t.val = 65 → ∀ a : Fin 2, win0_0.index t a * win0_0.size a = 0 ∧ win0_0.xsize (grid0.coords t) a = 1 := by decide +kernel
  intro a
  have hi : (i a).val < 1 := by fin_cases a <;> exact (i _).isLt
  show win0_0.index t a * win0_0.size a ≤ (i a : Nat) ∧ (i a : Nat) < win0_0.index t a * win0_0.size a + win0_0.xsize (grid0.coords t) a
  rw [(e t ht a).1, (e t ht a).2]; omega

theorem cover (i : S1x1.Idx) : ∃ t : Fin cfg0.N, (cfg0.win 0).flush t = true ∧ i ∈ ((cfg0.win 0).blk t).view.set :=
  ⟨pt 65 (by decide), (flush0_0 _).mpr (by decide), mem_last i _ rfl⟩

/-- The output array after the region: the total penalty. -/
theorem final_out (c : Dev nD) : (dats m 0 c).arrAt 0 cfg0.N = fun _ => total (fld m c) :=
  (dats m 0 c).arrAt_eq_of_cover 0 _ (fun t ht => flushed_eq m c t ht) cover

/-- The host lines after the region divide it by the pixel count: the program's result is the mean. -/
theorem result_eq (c : Dev nD) :
    Pipeline.afterTail₀ cfgs (dats m) 0 (V0 m) [hostOps1] c main_v3 = fun _ => mean (fld m c) := by
  unfold Pipeline.afterTail₀
  show StableHlo.after hostOps1 _ (Proc.devRef .tc main_v3) = _
  after_results
  have e1 : Pipeline.withArrays (cfgs 0).spec c (V0 m c) (fun w => (dats m 0 c).arrAt w (cfgs 0).N) (Proc.devRef .tc main_v1)
      = fun _ => total (fld m c) :=
    (Pipeline.withArrays_arr spec0 launch0.win.arr_inj c _ _ 0).trans (final_out m c)
  rw [e1]
  funext x
  rfl
end Final

end Cert.KernelIdeal.StreamValue

end
-- ==== Proof.RefDiff.lean ====
/-
  The reference's two difference arrays, read at an interior pixel.

  The reference pads the argument with one zero row above and below (resp. one zero column left and right), subtracts
  the padded array shifted by two from itself, halves, and crops two entries from every side. At an interior pixel the
  padding is never read: padded row `R + 1` is the field's row `R`, padded column `C + 1` is the field's column `C`.
  So the cropped row difference of channel `ch` at pixel `(r, c)` is
  `(x ch (r + 1) (c + 2) - x ch (r + 3) (c + 2)) / 2` and the cropped column difference is
  `(x ch (r + 2) (c + 1) - x ch (r + 2) (c + 3)) / 2`, where `x` is the field by channel, row and column.
  Every statement takes the index by its coordinates' values, so that the stages compose without index equations.
-/
import proofs.«111218_j23441931502078_1_alg».proof.Proof.Gen.ReferenceIdeal.Read
import proofs.«111218_j23441931502078_1_alg».proof.Proof.JacPenalty
import proofs.«111218_j23441931502078_1_alg».proof.Proof.FieldOf
import Idealize.ShloMosaic.Lib.KernelVsHost

noncomputable section

namespace Cert.ReferenceIdeal.RefValue

open Cert.ReferenceIdeal Cert.ReferenceIdeal.Gen Cert.ReferenceIdeal.Read Cert.JacPenalty
open Idealize.ShloMosaic Idealize.ShloMosaic.ValueIdx

/-- The argument array's type: extended reals over the shape [1, 2, 4096, 4096]. -/
abbrev Arg : Type := (⟨S1x2x4096x4096, .f32⟩ : BufTy).Contents (Elt Ideal)

/-- The row-padded array at padded row `R + 1` is the field at row `R`. -/
theorem rowPad_at (a : Arg) (ch : Fin 2) (R C : ℕ) (hR : R < 4096) (hC : C < 4096) (j : S1x2x4098x4096.Idx)
    (h1 : (j 1).val = ch.val) (h2 : (j 2).val = R + 1) (h3 : (j 3).val = C) :
    val_main_v0 (F := Ideal) a j = fieldOf a ch R C := by
  rw [fieldOf_eq a ch R C hR hC]
  unfold val_main_v0
  exact pad_apply_of_inside _ _ _ a _ pads_S1x2x4096x4096_S1x2x4098x4096_000_000_110_000 h_S_ j
    (ix4 (0 : Fin 1) ch ⟨R, hR⟩ ⟨C, hC⟩) (fun b => match b with
    | ⟨0, _⟩ => by have h : (j 0).val < 1 := (j 0).isLt; show (j 0).val = 0 + 0 * (0 + 1); omega
    | ⟨1, _⟩ => by show (j 1).val = 0 + ch.val * (0 + 1); omega
    | ⟨2, _⟩ => by show (j 2).val = 1 + R * (0 + 1); omega
    | ⟨3, _⟩ => by show (j 3).val = 0 + C * (0 + 1); omega)

/-- The column-padded array at padded column `C + 1` is the field at column `C`. -/
theorem colPad_at (a : Arg) (ch : Fin 2) (R C : ℕ) (hR : R < 4096) (hC : C < 4096) (j : S1x2x4096x4098.Idx)
    (h1 : (j 1).val = ch.val) (h2 : (j 2).val = R) (h3 : (j 3).val = C + 1) :
    val_main_v6 (F := Ideal) a j = fieldOf a ch R C := by
  rw [fieldOf_eq a ch R C hR hC]
  unfold val_main_v6
  exact pad_apply_of_inside _ _ _ a _ pads_S1x2x4096x4096_S1x2x4096x4098_000_000_000_110 h_S_ j
    (ix4 (0 : Fin 1) ch ⟨R, hR⟩ ⟨C, hC⟩) (fun b => match b with
    | ⟨0, _⟩ => by have h : (j 0).val < 1 := (j 0).isLt; show (j 0).val = 0 + 0 * (0 + 1); omega
    | ⟨1, _⟩ => by show (j 1).val = 0 + ch.val * (0 + 1); omega
    | ⟨2, _⟩ => by show (j 2).val = 0 + R * (0 + 1); omega
    | ⟨3, _⟩ => by show (j 3).val = 1 + C * (0 + 1); omega)

/-- The halved row difference, before the crop, at array position `(2 + r, 2 + c)`. -/
theorem rowDiff_at (a : Arg) (ch : Fin 2) (r c : ℕ) (hr : r < 4092) (hc : c < 4092) (i : S1x2x4096x4096.Idx)
    (h1 : (i 1).val = ch.val) (h2 : (i 2).val = 2 + r) (h3 : (i 3).val = 2 + c) :
    val_main_v5 (F := Ideal) a i
      = (fieldOf a ch (1 + r) (c + 2) - fieldOf a ch (1 + (r + 2)) (c + 2)) * half := by
  rw [val_main_v5_apply, val_main_v3_apply, val_main_v1_apply, val_main_v2_apply, val_main_v4_apply,
    val_main_cst_apply,
    rowPad_at a ch (1 + r) (c + 2) (by omega) (by omega) (idx_main_v1 i) h1
      (by show (i 2).val = 1 + r + 1; omega) (by show (i 3).val = c + 2; omega),
    rowPad_at a ch (1 + (r + 2)) (c + 2) (by omega) (by omega) (idx_main_v2 i) h1
      (by show 2 + (i 2).val = 1 + (r + 2) + 1; omega) (by show (i 3).val = c + 2; omega)]
  rfl

/-- The halved column difference, before the crop, at array position `(2 + r, 2 + c)`. -/
theorem colDiff_at (a : Arg) (ch : Fin 2) (r c : ℕ) (hr : r < 4092) (hc : c < 4092) (i : S1x2x4096x4096.Idx)
    (h1 : (i 1).val = ch.val) (h2 : (i 2).val = 2 + r) (h3 : (i 3).val = 2 + c) :
    val_main_v11 (F := Ideal) a i
      = (fieldOf a ch (1 + (r + 1)) (c + 1) - fieldOf a ch (1 + (r + 1)) (c + 3)) * half := by
  rw [val_main_v11_apply, val_main_v9_apply, val_main_v7_apply, val_main_v8_apply, val_main_v10_apply,
    val_main_cst_1_apply,
    colPad_at a ch (1 + (r + 1)) (c + 1) (by omega) (by omega) (idx_main_v7 i) h1
      (by show (i 2).val = 1 + (r + 1); omega) (by show (i 3).val = c + 1 + 1; omega),
    colPad_at a ch (1 + (r + 1)) (c + 3) (by omega) (by omega) (idx_main_v8 i) h1
      (by show (i 2).val = 1 + (r + 1); omega) (by show 2 + (i 3).val = c + 3 + 1; omega)]
  rfl

/-- The cropped row difference of channel `ch` at pixel `(r, c)`. -/
theorem rowDiffCrop_at (a : Arg) (ch : Fin 2) (r c : ℕ) (hr : r < 4092) (hc : c < 4092) (k : S2x4092x4092.Idx)
    (h0 : (k 0).val = ch.val) (h1 : (k 1).val = r) (h2 : (k 2).val = c) :
    val_main_v13 (F := Ideal) a k
      = (fieldOf a ch (1 + r) (c + 2) - fieldOf a ch (1 + (r + 2)) (c + 2)) * half := by
  have hch := ch.isLt
  rw [val_main_v13_apply, val_main_v12_apply]
  exact rowDiff_at a ch r c hr hc (idx_main_v12 (idx_main_v13 k))
    (by show (((k 0).val * 4092 + (k 1).val) * 4092 + (k 2).val) / 16744464 % 2 = ch.val; omega)
    (by show 2 + (((k 0).val * 4092 + (k 1).val) * 4092 + (k 2).val) / 4092 % 4092 = 2 + r; omega)
    (by show 2 + (((k 0).val * 4092 + (k 1).val) * 4092 + (k 2).val) % 4092 = 2 + c; omega)

/-- The cropped column difference of channel `ch` at pixel `(r, c)`. -/
theorem colDiffCrop_at (a : Arg) (ch : Fin 2) (r c : ℕ) (hr : r < 4092) (hc : c < 4092) (k : S2x4092x4092.Idx)
    (h0 : (k 0).val = ch.val) (h1 : (k 1).val = r) (h2 : (k 2).val = c) :
    val_main_v15 (F := Ideal) a k
      = (fieldOf a ch (1 + (r + 1)) (c + 1) - fieldOf a ch (1 + (r + 1)) (c + 3)) * half := by
  have hch := ch.isLt
  rw [val_main_v15_apply, val_main_v14_apply]
  exact colDiff_at a ch r c hr hc (idx_main_v14 (idx_main_v15 k))
    (by show (((k 0).val * 4092 + (k 1).val) * 4092 + (k 2).val) / 16744464 % 2 = ch.val; omega)
    (by show 2 + (((k 0).val * 4092 + (k 1).val) * 4092 + (k 2).val) / 4092 % 4092 = 2 + r; omega)
    (by show 2 + (((k 0).val * 4092 + (k 1).val) * 4092 + (k 2).val) % 4092 = 2 + c; omega)

/-- Channel 0 of the row difference as a 4092 × 4092 array, at pixel `(r, c)`. -/
theorem rowDiff0_at (a : Arg) (r c : Fin 4092) :
    val_main_v17 (F := Ideal) a (ix2 r c)
      = (fieldOf a 0 (1 + r.val) (c.val + 2) - fieldOf a 0 (1 + (r.val + 2)) (c.val + 2)) * half := by
  have hr := r.isLt
  have hc := c.isLt
  rw [val_main_v17_apply, val_main_v16_apply]
  exact rowDiffCrop_at a 0 r.val c.val hr hc (idx_main_v16 (idx_main_v17 (ix2 r c))) rfl
    (by show (r.val * 4092 + c.val) / 4092 % 4092 = r.val; omega)
    (by show (r.val * 4092 + c.val) % 4092 = c.val; omega)

/-- Channel 1 of the row difference as a 4092 × 4092 array, at pixel `(r, c)`. -/
theorem rowDiff1_at (a : Arg) (r c : Fin 4092) :
    val_main_v21 (F := Ideal) a (ix2 r c)
      = (fieldOf a 1 (1 + r.val) (c.val + 2) - fieldOf a 1 (1 + (r.val + 2)) (c.val + 2)) * half := by
  have hr := r.isLt
  have hc := c.isLt
  rw [val_main_v21_apply, val_main_v20_apply]
  exact rowDiffCrop_at a 1 r.val c.val hr hc (idx_main_v20 (idx_main_v21 (ix2 r c))) rfl
    (by show (r.val * 4092 + c.val) / 4092 % 4092 = r.val; omega)
    (by show (r.val * 4092 + c.val) % 4092 = c.val; omega)

/-- Channel 0 of the column difference as a 4092 × 4092 array, at pixel `(r, c)`. -/
theorem colDiff0_at (a : Arg) (r c : Fin 4092) :
    val_main_v23 (F := Ideal) a (ix2 r c)
      = (fieldOf a 0 (1 + (r.val + 1)) (c.val + 1) - fieldOf a 0 (1 + (r.val + 1)) (c.val + 3)) * half := by
  have hr := r.isLt
  have hc := c.isLt
  rw [val_main_v23_apply, val_main_v22_apply]
  exact colDiffCrop_at a 0 r.val c.val hr hc (idx_main_v22 (idx_main_v23 (ix2 r c))) rfl
    (by show (r.val * 4092 + c.val) / 4092 % 4092 = r.val; omega)
    (by show (r.val * 4092 + c.val) % 4092 = c.val; omega)

/-- Channel 1 of the column difference as a 4092 × 4092 array, at pixel `(r, c)`. -/
theorem colDiff1_at (a : Arg) (r c : Fin 4092) :
    val_main_v25 (F := Ideal) a (ix2 r c)
      = (fieldOf a 1 (1 + (r.val + 1)) (c.val + 1) - fieldOf a 1 (1 + (r.val + 1)) (c.val + 3)) * half := by
  have hr := r.isLt
  have hc := c.isLt
  rw [val_main_v25_apply, val_main_v24_apply]
  exact colDiffCrop_at a 1 r.val c.val hr hc (idx_main_v24 (idx_main_v25 (ix2 r c))) rfl
    (by show (r.val * 4092 + c.val) / 4092 % 4092 = r.val; omega)
    (by show (r.val * 4092 + c.val) % 4092 = c.val; omega)

end Cert.ReferenceIdeal.RefValue

end
-- ==== Proof.RefSpec.lean ====
/-
  The reference computes the regulariser.

  At pixel `(r, c)` of the 4092 × 4092 interior the reference forms `(dy0 + 1) (dx1 + 1) - dx0 dy1` from its four
  cropped difference arrays, negates it, takes the maximum with zero and squares: the pixel's penalty, read from field
  row `1` on. It then adds every pixel to a zero initial value and divides by the pixel count: the mean of the penalty.
-/
import proofs.«111218_j23441931502078_1_alg».proof.Proof.RefDiff

noncomputable section

namespace Cert.ReferenceIdeal.RefValue

open Cert.ReferenceIdeal Cert.ReferenceIdeal.Gen Cert.ReferenceIdeal.Read Cert.JacPenalty
open Idealize.ShloMosaic Idealize.ShloMosaic.ValueIdx

/-- The reference's squared negative part of the determinant at pixel `(r, c)` is the pixel's penalty. -/
theorem pixel_at (a : Arg) (r c : Fin 4092) :
    val_main_v33 (F := Ideal) a (ix2 r c) = pen (win (fieldOf a) 1) r.val c.val := by
  rw [val_main_v33_apply, val_main_v32_apply, val_main_v31_apply, val_main_v30_apply, val_main_v28_apply,
    val_main_v29_apply, val_main_v19_apply, val_main_v27_apply, val_main_v18_apply, val_main_v26_apply,
    val_main_cst_2_apply, val_main_cst_3_apply, val_main_call2_v0_apply, val_main_call2_cst_apply,
    rowDiff0_at, rowDiff1_at, colDiff0_at, colDiff1_at]
  unfold pen win
  simp only [Ideal.mulf_def, Ideal.maximumf_def, Ideal.hostNegf_def, Ideal.negf_def, Ideal.subf_def,
    Ideal.addf_def, Ideal.ofBits_def, Ideal.ofBits_zero_f32]

/-- The reference's result is the mean of the penalty over the interior. -/
theorem val_main_v35_spec (a : Arg) :
    val_main_v35 (F := Ideal) a = fun _ => mean (fieldOf a) := by
  funext i
  rw [val_main_v35_apply, val_main_v34_apply, val_main_cst_4_apply, val_main_cst_5_apply, sum_idx2]
  simp only [pixel_at, Ideal.hostDivf_def, Ideal.ofBits_def, Ideal.ofBits_zero_f32, zero_add]
  rfl

/-- The same at the result's one index. -/
theorem val_main_v35_spec_ix0 (a : Arg) :
    val_main_v35 (F := Ideal) a ix0 = mean (fieldOf a) :=
  congrFun (val_main_v35_spec a) ix0

end Cert.ReferenceIdeal.RefValue

end
-- ==== Proof.lean ====
/-
  The regulariser of a two-channel displacement field: central differences along rows and columns, the 2 × 2 Jacobian
  determinant of the deformed grid at every interior pixel, the square of its negative part, and the mean over the
  4092 × 4092 interior pixels.

  The kernel walks the interior in 66 bands of 62 pixel rows. It keeps the field in HBM and brings each band's 64 field
  rows (both channels; consecutive bands share two rows) into a two-slot staging scratch by its own transfers, one band
  ahead of the band it is reading, and keeps the running sum of the bands' penalties in a one-word scratch that the
  last band's point copies to the output; the host divides by the pixel count. The reference pads, slices, multiplies
  and reduces whole arrays. Both are one function of the field: the sum over bands of the bands' sums is the sum over
  all pixels, by associativity and commutativity of addition on the extended reals alone, so no finiteness is used.

  The frames of the two kernel programs are one proof at any float instance: each grid point's body run once at a
  symbolic point in each of its three cases, the ring of transfers and the accumulator's value carried between points
  by the invariant. The reference's frame is its run with the result dropped.
-/
import proofs.«111218_j23441931502078_1_alg».proof.Defs
import proofs.«111218_j23441931502078_1_alg».proof.Proof.Gen.Kernel
import proofs.«111218_j23441931502078_1_alg».proof.Proof.Gen.KernelIdeal
import proofs.«111218_j23441931502078_1_alg».proof.Proof.Gen.ReferenceIdeal
import proofs.«111218_j23441931502078_1_alg».proof.Proof.Gen.Pre_finite_inputs
import proofs.«111218_j23441931502078_1_alg».proof.Proof.Gen.ReferenceIdeal.Run
import proofs.«111218_j23441931502078_1_alg».proof.Proof.KernelFrame
import proofs.«111218_j23441931502078_1_alg».proof.Proof.KernelIdealValue
import proofs.«111218_j23441931502078_1_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Stream.frame (F := Bits) m ρ
theorem frame_ki : Cert.frame_KernelIdeal := fun m ρ _ => Cert.KernelIdeal.Stream.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: nothing was rewritten. -/
theorem preserves : Cert.preserves_Kernel_KernelIdeal := trivial

/-- Both programs end at the mean penalty of the field their argument holds. -/
theorem algebraic : Cert.algebraic_KernelIdeal_ReferenceIdeal := by
  intro m ρ m' ρ' _ hagree
  refine ⟨fun c => fun _ => Cert.JacPenalty.mean (Cert.KernelIdeal.StreamValue.fld m c), ?_, ?_⟩
  · refine (θ_run Cert.KernelIdeal.defs _ _).mono (fun r h c => ⟨?_, ?_⟩) (Cert.KernelIdeal.Stream.run_main (F := Ideal) m ρ)
    · exact ((h c).2 Cert.KernelIdeal.main_v3 (Pipeline.mem_restRefs_of Cert.KernelIdeal.main_v3 (by decide) (by decide))).trans
        (Cert.KernelIdeal.StreamValue.result_eq m c)
    · exact ((h c).2 Cert.KernelIdeal.main_arg0 (Pipeline.mem_restRefs_of Cert.KernelIdeal.main_arg0 (by decide) (by decide))).trans
        (Cert.KernelIdeal.Stream.tail_main_arg0 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v35_eq, Cert.ReferenceIdeal.RefValue.val_main_v35_spec, hagree c]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
